-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S500000 : Shape := ⟨1, ![500000]⟩
abbrev S64x64 : Shape := ⟨2, ![64, 64]⟩
abbrev S64 : Shape := ⟨1, ![64]⟩
abbrev S192x64 : Shape := ⟨2, ![192, 64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg11 : FVec F S192x64 .f32) (main_arg12 : FVec F S64 .f32) (main_arg13 : FVec F S64x2 .f32) (main_arg14 : FVec F S2 .f32) (main_v33 : IVec S_ 1) : IVec S_ 1 :=
  let main_v34 : FVec F S192x64 .f32 := Host.absf main_arg11
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg13
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg14
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg8 : FVec F S64x64 .f32) (main_arg9 : FVec F S64x64 .f32) (main_arg10 : FVec F S64 .f32) (main_arg11 : FVec F S192x64 .f32) (main_arg12 : FVec F S64 .f32) (main_arg13 : FVec F S64x2 .f32) (main_arg14 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S100000x64 .f32) (main_arg1 : IVec S1600000 32) (main_arg2 : IVec S1600000 32) (main_arg3 : IVec S500000 32) (main_arg4 : IVec S500000 32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S192x64 .f32) (main_arg12 : FVec F S64 .f32) (main_arg13 : FVec F S64x2 .f32) (main_arg14 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_v13 main_v16
-- ==== Kernel.lean ====
abbrev S100000x64 : Shape := ⟨2, ![100000, 64]⟩
abbrev S1600000 : Shape := ⟨1, ![1600000]⟩
abbrev S500000 : Shape := ⟨1, ![500000]⟩
abbrev S64x64 : Shape := ⟨2, ![64, 64]⟩
abbrev S64 : Shape := ⟨1, ![64]⟩
abbrev S192x64 : Shape := ⟨2, ![192, 64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S5000x64 : Shape := ⟨2, ![5000, 64]⟩
abbrev S1x64 : Shape := ⟨2, ![1, 64]⟩
abbrev S500000x1 : Shape := ⟨2, ![500000, 1]⟩
abbrev S500000x64 : Shape := ⟨2, ![500000, 64]⟩
abbrev S500000x2 : Shape := ⟨2, ![500000, 2]⟩
abbrev S5000x2 : Shape := ⟨2, ![5000, 2]⟩
abbrev S1x2 : Shape := ⟨2, ![1, 2]⟩

abbrev nBuf : Space → Nat
  | .hbm => 79
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S500000, .i32⟩
  | .hbm, ⟨4, _⟩ => ⟨S500000, .i32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S192x64, .f32⟩
  | .hbm, ⟨12, _⟩ => ⟨S64, .f32⟩
  | .hbm, ⟨13, _⟩ => ⟨S64x2, .f32⟩
  | .hbm, ⟨14, _⟩ => ⟨S2, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x64, .f32⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x64, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S500000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S64x64, .f32⟩
  | .local _ .vmem, ⟨25, _⟩ => ⟨S64, .f32⟩
  | .local _ .vmem, ⟨26, _⟩ => ⟨S64x2, .f32⟩
  | .local _ .vmem, ⟨27, _⟩ => ⟨S2, .f32⟩
  | .local _ .vmem, ⟨28, _⟩ => ⟨S5000x2, .f32⟩
  | .local _ .vmem, ⟨29, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S500000 : S_.BroadcastsInDim S500000 (![] : Fin 0 → Fin S500000.rank)
  bcast_S500000_S500000x1_0 : S500000.BroadcastsInDim S500000x1 (![0] : Fin 1 → Fin S500000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64x64_S64x64 : S64x64.ShapeCasts S64x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  gather_S100000x64_S500000x1_S500000x64_1_0_n_n_0_1_164_wf : GatherDims.WF S100000x64 S500000x1 S500000x64 [1] [0] [] [0] [] 1 ![1, 64]
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S500000x64.size a
  hwx2_0 : ∀ i : grid2.Coords, EltTy.bits .f32 = 32 ∨ (Rect.block (s := S500000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S500000x64.size a
  hwx2_1 : ∀ i : grid2.Coords, EltTy.bits .f32 = 32 ∨ (Rect.block (s := S500000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x2.size a ≤ S64x2.size a
  hwx2_6 : ∀ i : grid2.Coords, EltTy.bits .f32 = 32 ∨ (Rect.block (s := S64x2) S64x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2.size a ≤ S2.size a
  hwx2_7 : ∀ i : grid2.Coords, EltTy.bits .f32 = 32 ∨ (Rect.block (s := S2) S2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x2.size a ≤ S500000x2.size a
  hwx2_8 : ∀ i : grid2.Coords, EltTy.bits .f32 = 32 ∨ (Rect.block (s := S500000x2) S5000x2.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S64x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v50) S5000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S500000 : Shape := ⟨1, ![500000]⟩
abbrev S64x64 : Shape := ⟨2, ![64, 64]⟩
abbrev S64 : Shape := ⟨1, ![64]⟩
abbrev S192x64 : Shape := ⟨2, ![192, 64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S500000x1 : Shape := ⟨2, ![500000, 1]⟩
abbrev S500000x64 : Shape := ⟨2, ![500000, 64]⟩
abbrev S500000x192 : Shape := ⟨2, ![500000, 192]⟩
abbrev S500000x2 : Shape := ⟨2, ![500000, 2]⟩
abbrev S1x2 : Shape := ⟨2, ![1, 2]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S500000, .i32⟩
  | .hbm, ⟨4, _⟩ => ⟨S500000, .i32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S192x64, .f32⟩
  | .hbm, ⟨12, _⟩ => ⟨S64, .f32⟩
  | .hbm, ⟨13, _⟩ => ⟨S64x2, .f32⟩
  | .hbm, ⟨14, _⟩ => ⟨S2, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x64, .f32⟩
  | .hbm, ⟨82, _⟩ => ⟨S_, .i32⟩
  | .hbm, ⟨83, _⟩ => ⟨S500000, .i32⟩
  | .hbm, ⟨84, _⟩ => ⟨S500000, .i1⟩
  | .hbm, ⟨85, _⟩ => ⟨S_, .i32⟩
  | .hbm, ⟨86, _⟩ => ⟨S500000, .i32⟩
  | .hbm, ⟨87, _⟩ => ⟨S500000, .i32⟩
  | .hbm, ⟨88, _⟩ => ⟨S500000, .i32⟩
  | .hbm, ⟨89, _⟩ => ⟨S500000x1, .i32⟩
  | .hbm, ⟨90, _⟩ => ⟨S500000x64, .f32⟩
  | .hbm, ⟨91, _⟩ => ⟨S500000x64, .f32⟩
  | .hbm, ⟨92, _⟩ => ⟨S500000x64, .f32⟩
  | .hbm, ⟨93, _⟩ => ⟨S500000x192, .f32⟩
  | .hbm, ⟨94, _⟩ => ⟨S500000x64, .f32⟩
  | .hbm, ⟨95, _⟩ => ⟨S1x64, .f32⟩
  | .hbm, ⟨96, _⟩ => ⟨S500000x64, .f32⟩
  | .hbm, ⟨97, _⟩ => ⟨S500000x64, .f32⟩
  | .hbm, ⟨98, _⟩ => ⟨S_, .f32⟩
  | .hbm, ⟨99, _⟩ => ⟨S500000x64, .f32⟩
  | .hbm, ⟨100, _⟩ => ⟨S500000x64, .f32⟩
  | .hbm, ⟨101, _⟩ => ⟨S500000x2, .f32⟩
  | .hbm, ⟨102, _⟩ => ⟨S1x2, .f32⟩
  | .hbm, ⟨103, _⟩ => ⟨S500000x2, .f32⟩
  | .hbm, ⟨104, _⟩ => ⟨S500000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_cst : Ref sig .tc := ⟨.hbm, 46, rfl⟩
abbrev main_call0_v0 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call1_cst : Ref sig .tc := ⟨.hbm, 70, rfl⟩
abbrev main_call1_v0 : Ref sig .tc := ⟨.hbm, 71, rfl⟩
abbrev main_v44 : Ref sig .tc := ⟨.hbm, 72, rfl⟩
abbrev main_c_7 : Ref sig .tc := ⟨.hbm, 73, rfl⟩
abbrev main_v45 : Ref sig .tc := ⟨.hbm, 74, rfl⟩
abbrev main_v46 : Ref sig .tc := ⟨.hbm, 75, rfl⟩
abbrev main_c_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_9 : Ref sig .tc := ⟨.hbm, 82, rfl⟩
abbrev main_v52 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call2_cst : Ref sig .tc := ⟨.hbm, 98, rfl⟩
abbrev main_call2_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x64_S500000x192_d1 : Shape.Concatenates [S500000x64, S500000x64, S500000x64] S500000x192 1
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x192_S192x64_S500000x64_1_0_0_1_n_n_wf : DotDims.WF S500000x192 S192x64 S500000x64 [1] [0] [0] [1] [] []
  dot_S500000x64_S64x2_S500000x2_1_0_0_1_n_n_wf : DotDims.WF S500000x64 S64x2 S500000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x192_S192x64_S500000x64_1_0_0_1_n_n : DotDims S500000x192 S192x64 S500000x64 where
  lhsContracting := [1]
  rhsContracting := [0]
  lhsNonContracting := [0]
  rhsNonContracting := [1]
  lhsBatch := []
  rhsBatch := []
  wf := dot_S500000x192_S192x64_S500000x64_1_0_0_1_n_n_wf
def dot_S500000x64_S64x2_S500000x2_1_0_0_1_n_n : DotDims S500000x64 S64x2 S500000x2 where
  lhsContracting := [1]
  rhsContracting := [0]
  lhsNonContracting := [0]
  rhsNonContracting := [1]
  lhsBatch := []
  rhsBatch := []
  wf := dot_S500000x64_S64x2_S500000x2_1_0_0_1_n_n_wf

class Facts : Prop extends Facts₀ where

variable [Facts]
-- ==== Proof.KernelRun.lean ====
/-
  The idealized kernel's run with its result named.  @main is six segments: a stretch of host operations (the degrees
  and the first mean of neighbours), the first dense update as a tiled kernel, a second stretch (the second mean of
  neighbours), the second dense update, a third stretch (the two gathers of pair endpoints and the three row blocks of
  the head's first weight matrix), and the pair head as a tiled kernel.  Every weakly fair execution terminates without
  a fault; the result array ends at what the last boundary's contents hold for it — the sixth boundary `W6`, where the
  third kernel's write-backs have been put into the arrays — and every argument array ends as launched.
-/
import proofs.«172559_j14190571946097_2_alg».proof.Proof.KernelIdealFrameP

set_option maxRecDepth 16384

noncomputable section

namespace Cert.KernelIdeal.RunNamed

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the six segments, the final state read against the last boundary's contents: the result array is
    what `W6` holds for it, each argument array what was launched. -/
theorem run_named : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.RunNamed

end
-- ==== Proof.Boundaries.lean ====
/-
  Bookkeeping at the six boundaries of the idealized kernel's @main.  The contents at the boundaries are
  W0 (launch), W1 (after the first host stretch), W2 (after the first dense update), W3 (after the second host stretch),
  W4 (after the second dense update), W5 (after the third host stretch) and W6 (after the pair head).  No host operation
  writes an argument array and a tiled kernel changes only its output array, so an argument array read at any boundary
  is the launch memory's; likewise the degrees computed in the first stretch and the first update's result are still
  there when the second stretch reads them.
-/
import proofs.«172559_j14190571946097_2_alg».proof.Proof.KernelIdealFrameP

set_option maxRecDepth 16384

noncomputable section

namespace Cert.KernelIdeal.Boundaries

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (ρ : Dev nD → PrngReg)

/-! ## After the first host stretch every argument array is the launch memory's -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0)).trans rfl

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg1) = W0 m ρ c (Proc.devRef .tc main_arg1)).trans rfl

theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg2) = W0 m ρ c (Proc.devRef .tc main_arg2)).trans rfl

theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg3) = W0 m ρ c (Proc.devRef .tc main_arg3)).trans rfl

theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg4) = W0 m ρ c (Proc.devRef .tc main_arg4)).trans rfl

theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg5) = W0 m ρ c (Proc.devRef .tc main_arg5)).trans rfl

theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg6) = W0 m ρ c (Proc.devRef .tc main_arg6)).trans rfl

theorem W1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg7) = W0 m ρ c (Proc.devRef .tc main_arg7)).trans rfl

theorem W1_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg8) = W0 m ρ c (Proc.devRef .tc main_arg8)).trans rfl

theorem W1_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg9) = W0 m ρ c (Proc.devRef .tc main_arg9)).trans rfl

theorem W1_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg10) = W0 m ρ c (Proc.devRef .tc main_arg10)).trans rfl

theorem W1_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg11) = W0 m ρ c (Proc.devRef .tc main_arg11)).trans rfl

theorem W1_arg12 (c : Dev nD) : W1 m ρ c (Proc.devRef .tc main_arg12) = m ((c : Thread nD τ).loc main_arg12) :=
  (StableHlo.after_of_forall_not_mem (b := Proc.devRef .tc main_arg12) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg12) = W0 m ρ c (Proc.devRef .tc main_arg12)).trans rfl

theorem W1_arg13 (c : Dev nD) : W1 m ρ c (Proc.devRef .tc main_arg13) = m ((c : Thread nD τ).loc main_arg13) :=
  (StableHlo.after_of_forall_not_mem (b := Proc.devRef .tc main_arg13) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg13) = W0 m ρ c (Proc.devRef .tc main_arg13)).trans rfl

theorem W1_arg14 (c : Dev nD) : W1 m ρ c (Proc.devRef .tc main_arg14) = m ((c : Thread nD τ).loc main_arg14) :=
  (StableHlo.after_of_forall_not_mem (b := Proc.devRef .tc main_arg14) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg14) = W0 m ρ c (Proc.devRef .tc main_arg14)).trans rfl

/-! ## Across the first dense update: what is not one of its arrays is as it was -/

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg4 (c : Dev nD) : W2 m ρ c (Proc.devRef .tc main_arg4) = m ((c : Thread nD τ).loc main_arg4) :=
  (W2_of_ne m ρ c main_arg4 (by decide)).trans (W1_arg4 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_arg12 (c : Dev nD) : W2 m ρ c (Proc.devRef .tc main_arg12) = m ((c : Thread nD τ).loc main_arg12) :=
  (W2_of_ne m ρ c main_arg12 (by decide)).trans (W1_arg12 m ρ c)

theorem W2_arg13 (c : Dev nD) : W2 m ρ c (Proc.devRef .tc main_arg13) = m ((c : Thread nD τ).loc main_arg13) :=
  (W2_of_ne m ρ c main_arg13 (by decide)).trans (W1_arg13 m ρ c)

theorem W2_arg14 (c : Dev nD) : W2 m ρ c (Proc.devRef .tc main_arg14) = m ((c : Thread nD τ).loc main_arg14) :=
  (W2_of_ne m ρ c main_arg14 (by decide)).trans (W1_arg14 m ρ c)

/-- The degrees, computed in the first stretch, are still there after the first update. -/
theorem W2_v6 (c : Dev nD) : W2 m ρ c (Proc.devRef .tc main_v6) = W1 m ρ c (Proc.devRef .tc main_v6) :=
  W2_of_ne m ρ c main_v6 (by decide)

/-! ## Across the second host stretch -/

theorem W3_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg3) = W2 m ρ c (Proc.devRef .tc main_arg3)).trans (W2_arg3 m ρ c)

theorem W3_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg4) = W2 m ρ c (Proc.devRef .tc main_arg4)).trans (W2_arg4 m ρ c)

theorem W3_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg8) = W2 m ρ c (Proc.devRef .tc main_arg8)).trans (W2_arg8 m ρ c)

theorem W3_arg9 (c : Dev nD) : W3 m ρ c (Proc.devRef .tc main_arg9) = m ((c : Thread nD τ).loc main_arg9) :=
  (StableHlo.after_of_forall_not_mem (b := Proc.devRef .tc main_arg9) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg9) = W2 m ρ c (Proc.devRef .tc main_arg9)).trans (W2_arg9 m ρ c)

theorem W3_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg10) = W2 m ρ c (Proc.devRef .tc main_arg10)).trans (W2_arg10 m ρ c)

theorem W3_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg11) = W2 m ρ c (Proc.devRef .tc main_arg11)).trans (W2_arg11 m ρ c)

theorem W3_arg12 (c : Dev nD) : W3 m ρ c (Proc.devRef .tc main_arg12) = m ((c : Thread nD τ).loc main_arg12) :=
  (StableHlo.after_of_forall_not_mem (b := Proc.devRef .tc main_arg12) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg12) = W2 m ρ c (Proc.devRef .tc main_arg12)).trans (W2_arg12 m ρ c)

theorem W3_arg13 (c : Dev nD) : W3 m ρ c (Proc.devRef .tc main_arg13) = m ((c : Thread nD τ).loc main_arg13) :=
  (StableHlo.after_of_forall_not_mem (b := Proc.devRef .tc main_arg13) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg13) = W2 m ρ c (Proc.devRef .tc main_arg13)).trans (W2_arg13 m ρ c)

theorem W3_arg14 (c : Dev nD) : W3 m ρ c (Proc.devRef .tc main_arg14) = m ((c : Thread nD τ).loc main_arg14) :=
  (StableHlo.after_of_forall_not_mem (b := Proc.devRef .tc main_arg14) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg14) = W2 m ρ c (Proc.devRef .tc main_arg14)).trans (W2_arg14 m ρ c)

/-- The first update's result is still there after the second stretch. -/
theorem W3_v19 (c : Dev nD) : W3 m ρ c (Proc.devRef .tc main_v19) = W2 m ρ c (Proc.devRef .tc main_v19) :=
  StableHlo.after_of_forall_not_mem (b := Proc.devRef .tc main_v19) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Across the second dense update -/

theorem W4_arg3 (c : Dev nD) : W4 m ρ c (Proc.devRef .tc main_arg3) = m ((c : Thread nD τ).loc main_arg3) :=
  (W4_of_ne m ρ c main_arg3 (by decide)).trans (W3_arg3 m ρ c)

theorem W4_arg4 (c : Dev nD) : W4 m ρ c (Proc.devRef .tc main_arg4) = m ((c : Thread nD τ).loc main_arg4) :=
  (W4_of_ne m ρ c main_arg4 (by decide)).trans (W3_arg4 m ρ c)

theorem W4_arg11 (c : Dev nD) : W4 m ρ c (Proc.devRef .tc main_arg11) = m ((c : Thread nD τ).loc main_arg11) :=
  (W4_of_ne m ρ c main_arg11 (by decide)).trans (W3_arg11 m ρ c)

theorem W4_arg12 (c : Dev nD) : W4 m ρ c (Proc.devRef .tc main_arg12) = m ((c : Thread nD τ).loc main_arg12) :=
  (W4_of_ne m ρ c main_arg12 (by decide)).trans (W3_arg12 m ρ c)

theorem W4_arg13 (c : Dev nD) : W4 m ρ c (Proc.devRef .tc main_arg13) = m ((c : Thread nD τ).loc main_arg13) :=
  (W4_of_ne m ρ c main_arg13 (by decide)).trans (W3_arg13 m ρ c)

theorem W4_arg14 (c : Dev nD) : W4 m ρ c (Proc.devRef .tc main_arg14) = m ((c : Thread nD τ).loc main_arg14) :=
  (W4_of_ne m ρ c main_arg14 (by decide)).trans (W3_arg14 m ρ c)

/-! ## Across the third host stretch -/

theorem W5_arg12 (c : Dev nD) : W5 m ρ c (Proc.devRef .tc main_arg12) = m ((c : Thread nD τ).loc main_arg12) :=
  (StableHlo.after_of_forall_not_mem (b := Proc.devRef .tc main_arg12) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W5 m ρ c (Proc.devRef .tc main_arg12) = W4 m ρ c (Proc.devRef .tc main_arg12)).trans (W4_arg12 m ρ c)

theorem W5_arg13 (c : Dev nD) : W5 m ρ c (Proc.devRef .tc main_arg13) = m ((c : Thread nD τ).loc main_arg13) :=
  (StableHlo.after_of_forall_not_mem (b := Proc.devRef .tc main_arg13) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W5 m ρ c (Proc.devRef .tc main_arg13) = W4 m ρ c (Proc.devRef .tc main_arg13)).trans (W4_arg13 m ρ c)

theorem W5_arg14 (c : Dev nD) : W5 m ρ c (Proc.devRef .tc main_arg14) = m ((c : Thread nD τ).loc main_arg14) :=
  (StableHlo.after_of_forall_not_mem (b := Proc.devRef .tc main_arg14) _ _ (List.forall_iff_forall_mem.mp (by
      simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W5 m ρ c (Proc.devRef .tc main_arg14) = W4 m ρ c (Proc.devRef .tc main_arg14)).trans (W4_arg14 m ρ c)

end Cert.KernelIdeal.Boundaries

end
-- ==== Proof.Stretch0.lean ====
/-
  The first host stretch of the idealized kernel, read against the reference's stages.  From the launch memory it
  computes the clamped in-degrees (a scatter-add of ones over the destination indices, the maximum with one, kept as a
  column) and the mean over incoming edges of the input features (a gather of the source rows, a scatter-add over the
  destinations, the quotient by the degree column broadcast across the 64 features).  These are the reference's first
  operations, one for one, applied to the same argument arrays, so each array the stretch leaves is the reference's
  stage of the launch arrays; the gather, the scatter-add and the quotient are never opened.
-/
import proofs.«172559_j14190571946097_2_alg».proof.Proof.KernelIdealFrameP
import proofs.«172559_j14190571946097_2_alg».proof.Proof.Boundaries
import proofs.«172559_j14190571946097_2_alg».proof.Proof.Gen.ReferenceIdeal.Read
import Idealize.ShloMosaic.Lib.StableHlo.Run

set_option maxRecDepth 16384

noncomputable section

namespace Cert.GraphNet.Stretches

open Cert.KernelIdeal Cert.KernelIdeal.Gen Cert.KernelIdeal.GenP Cert.KernelIdeal.Boundaries
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The degree column after the first stretch is the reference's, of the destination indices as launched. -/
theorem degrees (c : Dev nD) :
    W1 m ρ c (Proc.devRef .tc main_v6) = Cert.ReferenceIdeal.Read.val_main_v6 (F := Ideal) (m ((c : Thread nD τ).loc main_arg2)) := by
  show StableHlo.after hostOps0 (W0 m ρ c) (Proc.devRef .tc main_v6) = _
  after_results_simp
  rfl

set_option maxHeartbeats 4000000 in
/-- The first mean over incoming edges is the reference's, of the features and the edge indices as launched. -/
theorem mean0 (c : Dev nD) :
    W1 m ρ c (Proc.devRef .tc main_v18) = Cert.ReferenceIdeal.Read.val_main_v18 (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

end Cert.GraphNet.Stretches

end
-- ==== Proof.Stretch1.lean ====
/-
  The second host stretch of the idealized kernel.  From the first dense update's result it computes the mean over
  incoming edges again — the same gather of source rows, scatter-add over destinations and quotient by the degree
  column, the degrees being those the first stretch left.  As a function of the array it averages, of the edge indices
  and of the degrees this is the reference's first-mean stage, applied here to the first update's result.
-/
import proofs.«172559_j14190571946097_2_alg».proof.Proof.KernelIdealFrameP
import proofs.«172559_j14190571946097_2_alg».proof.Proof.Boundaries
import proofs.«172559_j14190571946097_2_alg».proof.Proof.Gen.ReferenceIdeal.Read
import Idealize.ShloMosaic.Lib.StableHlo.Run

set_option maxRecDepth 16384

noncomputable section

namespace Cert.GraphNet.Stretches

open Cert.KernelIdeal Cert.KernelIdeal.Gen Cert.KernelIdeal.GenP Cert.KernelIdeal.Boundaries
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The second mean over incoming edges: the reference's mean stage of the first update's result and the edge indices
    as launched, given that the degree column is the reference's. -/
theorem mean1 (c : Dev nD)
    (hdeg : W1 m ρ c (Proc.devRef .tc main_v6) = Cert.ReferenceIdeal.Read.val_main_v6 (F := Ideal) (m ((c : Thread nD τ).loc main_arg2))) :
    W3 m ρ c (Proc.devRef .tc main_v31)
      = Cert.ReferenceIdeal.Read.val_main_v18 (F := Ideal) (W2 m ρ c (Proc.devRef .tc main_v19)) (m ((c : Thread nD τ).loc main_arg1)) (m ((c : Thread nD τ).loc main_arg2)) := by
  show StableHlo.after hostOps1 (W2 m ρ c) (Proc.devRef .tc main_v31) = _
  after_results_simp
  rw [W2_arg1 m ρ c, W2_arg2 m ρ c, W2_v6 m ρ c, hdeg]
  rfl

end Cert.GraphNet.Stretches

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibJoinedAxis.lean ====
/-
  Matrix products over a joined axis, at the ideal values.  When the columns of the left factor are two or three pieces
  laid side by side, [x | y]·W or [x | y | z]·W, the product is the sum of the pieces' products with the matching blocks
  of consecutive rows of W: a finite sum over a joined index range is the sum of the sums over its pieces, which on the
  extended reals uses only that addition is commutative and associative (no finiteness).  With it: a block of
  consecutive rows of a matrix as a function of the index and as what a unit-stride host slice cuts out, a vector recast
  as a one-row matrix, and that a row of a product depends on that row of the left factor only.
-/
import proofs.«172559_j14190571946097_2_alg».proof.Proof.LibMatmul
import Idealize.ShloMosaic.Lib.Pipeline.Value

noncomputable section

open scoped BigOperators

namespace Cert.LibJoinedAxis

open Idealize.ShloMosaic Idealize.ShloMosaic.ValueIdx Cert.LibMatmul

/-- Rows `off, …, off + K' - 1` of a matrix with `K` rows. -/
def rowsAt {K B : Nat} (off K' : Nat) (h : off + K' ≤ K) (w : (⟨2, ![K, B]⟩ : Shape).Idx → EReal) :
    (⟨2, ![K', B]⟩ : Shape).Idx → EReal :=
  fun i => w (ix2 ⟨off + (i 0).val, by have := idx2_lt0 i; omega⟩ (i 1))

theorem rowsAt_apply {K B : Nat} (off K' : Nat) (h : off + K' ≤ K) (w : (⟨2, ![K, B]⟩ : Shape).Idx → EReal)
    (k : Fin K') (q : Fin B) : rowsAt off K' h w (ix2 k q) = w (ix2 ⟨off + k.val, by have := k.isLt; omega⟩ q) := rfl

/-- Rows `off, …, off + K' - 1` of a matrix, all columns, are what a unit-stride slice at offset (off, 0) cuts out. -/
theorem slice_rows {K B K' : Nat} (off : Nat) (w : (⟨2, ![K, B]⟩ : Shape).Idx → EReal)
    (h : (⟨2, ![K, B]⟩ : Shape).Slices ![off, 0] ⟨2, ![K', B]⟩) (hle : off + K' ≤ K) :
    extractStridedSlice ⟨2, ![K', B]⟩ ![off, 0] w h = rowsAt off K' hle w := by
  funext i
  obtain ⟨k, q, rfl⟩ : ∃ (k : Fin K') (q : Fin B), i = ix2 k q := ⟨i 0, i 1, eq_ix2 i⟩
  rw [rowsAt_apply]
  refine extractStridedSlice_apply ![off, 0] w h (ix2 k q) (ix2 ⟨off + k.val, by have := k.isLt; omega⟩ q) (fun a => ?_)
  match a with
  | ⟨0, _⟩ => rfl
  | ⟨1, _⟩ => show q.val = 0 + q.val; omega

/-- A vector recast as a one-row matrix reads the vector at the column. -/
theorem reshape_row {B : Nat} (v : (⟨1, ![B]⟩ : Shape).Idx → EReal)
    (h : (⟨1, ![B]⟩ : Shape).ShapeCasts ⟨2, ![1, B]⟩) :
    shapeCast ⟨2, ![1, B]⟩ v h = fun i => v (ix1 (i 1)) := by
  funext i
  refine shapeCast_apply v h i (ix1 (i 1)) ?_
  rewrite [Shape.rowMajor_val_one, Shape.rowMajor_val_two]
  have h0 : (i 0).val < 1 := idx2_lt0 i
  have h00 : (i 0).val = 0 := by omega
  show (i 1).val = (i 0).val * B + (i 1).val
  rw [h00]; omega

/-- A row of a matrix product depends on that row of the left factor only. -/
theorem MM_row {A A' K B : Nat} (x : (⟨2, ![A, K]⟩ : Shape).Idx → EReal) (x' : (⟨2, ![A', K]⟩ : Shape).Idx → EReal)
    (w : (⟨2, ![K, B]⟩ : Shape).Idx → EReal) (p : Fin A) (p' : Fin A') (q : Fin B)
    (hx : ∀ k : Fin K, x (ix2 p k) = x' (ix2 p' k)) : MM x w (ix2 p q) = MM x' w (ix2 p' q) := by
  rw [MM_apply, MM_apply]
  exact Finset.sum_congr rfl fun k _ => by rw [hx k]

/-! ## A sum over a joined index range is the sum of the sums over its pieces -/

theorem sum_two {M : Type} [AddCommMonoid M] (a b : Nat) (f : Fin (a + b) → M) :
    ∑ k : Fin (a + b), f k
      = ∑ k : Fin a, f ⟨0 + k.val, by have := k.isLt; omega⟩ + ∑ k : Fin b, f ⟨a + k.val, by have := k.isLt; omega⟩ := by
  rw [Fin.sum_univ_add]
  refine congrArg₂ (· + ·) ?_ ?_ <;> refine Finset.sum_congr rfl fun k _ => congrArg f (Fin.ext ?_)
  · show k.val = 0 + k.val; omega
  · rfl

theorem sum_three {M : Type} [AddCommMonoid M] (a b c : Nat) (f : Fin (a + b + c) → M) :
    ∑ k : Fin (a + b + c), f k
      = (∑ k : Fin a, f ⟨0 + k.val, by have := k.isLt; omega⟩ + ∑ k : Fin b, f ⟨a + k.val, by have := k.isLt; omega⟩)
        + ∑ k : Fin c, f ⟨a + b + k.val, by have := k.isLt; omega⟩ := by
  rw [Fin.sum_univ_add, Fin.sum_univ_add]
  refine congrArg₂ (· + ·) (congrArg₂ (· + ·) ?_ ?_) ?_ <;> refine Finset.sum_congr rfl fun k _ => congrArg f (Fin.ext ?_)
  · show k.val = 0 + k.val; omega
  · rfl
  · rfl

/-! ## The product of a matrix whose columns are pieces laid side by side -/

/-- [x | y]·W = x·(the first `a` rows of W) + y·(the next `b` rows), at row `p` and column `q`; the joined matrix enters
    only through its row `p` read at a column of each piece. -/
theorem MM_join2 {E a b B : Nat} (cat : (⟨2, ![E, a + b]⟩ : Shape).Idx → EReal) (x : (⟨2, ![E, a]⟩ : Shape).Idx → EReal)
    (y : (⟨2, ![E, b]⟩ : Shape).Idx → EReal) (w : (⟨2, ![a + b, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k)) :
    MM cat w (ix2 p q)
      = MM x (rowsAt 0 a (by omega) w) (ix2 p q) + MM y (rowsAt a b (by omega) w) (ix2 p q) := by
  rw [MM_apply, MM_apply, MM_apply]
  refine (sum_two a b (fun k : Fin (a + b) => cat (ix2 p k) * w (ix2 k q))).trans ?_
  refine congrArg₂ (· + ·) ?_ ?_
  · exact Finset.sum_congr rfl fun k _ => by rw [rowsAt_apply]; exact congrArg (· * _) (h0 k)
  · exact Finset.sum_congr rfl fun k _ => by rw [rowsAt_apply]; exact congrArg (· * _) (h1 k)

/-- [x | y | z]·W = x·(the first `a` rows of W) + y·(the next `b` rows) + z·(the last `c` rows), the three products added
    left to right. -/
theorem MM_join3 {E a b c B : Nat} (cat : (⟨2, ![E, a + b + c]⟩ : Shape).Idx → EReal) (x : (⟨2, ![E, a]⟩ : Shape).Idx → EReal)
    (y : (⟨2, ![E, b]⟩ : Shape).Idx → EReal) (z : (⟨2, ![E, c]⟩ : Shape).Idx → EReal)
    (w : (⟨2, ![a + b + c, B]⟩ : Shape).Idx → EReal) (p : Fin E) (q : Fin B)
    (h0 : ∀ k : Fin a, cat (ix2 p ⟨0 + k.val, by have := k.isLt; omega⟩) = x (ix2 p k))
    (h1 : ∀ k : Fin b, cat (ix2 p ⟨a + k.val, by have := k.isLt; omega⟩) = y (ix2 p k))
    (h2 : ∀ k : Fin c, cat (ix2 p ⟨a + b + k.val, by have := k.isLt; omega⟩) = z (ix2 p k)) :
    MM cat w (ix2 p q)
      = (MM x (rowsAt 0 a (by omega) w) (ix2 p q) + MM y (rowsAt a b (by omega) w) (ix2 p q))
        + MM z (rowsAt (a + b) c (by omega) w) (ix2 p q) := by
  rw [MM_apply, MM_apply, MM_apply, MM_apply]
  refine (sum_three a b c (fun k : Fin (a + b + c) => cat (ix2 p k) * w (ix2 k q))).trans ?_
  refine congrArg₂ (· + ·) (congrArg₂ (· + ·) ?_ ?_) ?_
  · exact Finset.sum_congr rfl fun k _ => by rw [rowsAt_apply]; exact congrArg (· * _) (h0 k)
  · exact Finset.sum_congr rfl fun k _ => by rw [rowsAt_apply]; exact congrArg (· * _) (h1 k)
  · exact Finset.sum_congr rfl fun k _ => by rw [rowsAt_apply]; exact congrArg (· * _) (h2 k)

end Cert.LibJoinedAxis

end
-- ==== Proof.Stretch2.lean ====
/-
  The third host stretch of the idealized kernel.  From the second dense update's result it gathers the rows of the two
  endpoints of every pair, and cuts the head's first weight matrix (192 rows) into its three blocks of 64 consecutive
  rows.  The gathers are the reference's (the same index normalisation, the same gather, of the same index arrays);
  a block of consecutive rows is what a unit-stride slice at a row offset cuts out.
-/
import proofs.«172559_j14190571946097_2_alg».proof.Proof.KernelIdealFrameP
import proofs.«172559_j14190571946097_2_alg».proof.Proof.Boundaries
import proofs.«172559_j14190571946097_2_alg».proof.Proof.Gen.ReferenceIdeal.Read
import proofs.«172559_j14190571946097_2_alg».proof.Proof.LibJoinedAxis
import Idealize.ShloMosaic.Lib.StableHlo.Run

set_option maxRecDepth 16384

noncomputable section

namespace Cert.GraphNet.Stretches

open Cert.KernelIdeal Cert.KernelIdeal.Gen Cert.KernelIdeal.GenP Cert.KernelIdeal.Boundaries
open Idealize.ShloMosaic Idealize.ShloMosaic.TcCoe Idealize.SL.Sem Idealize.ShloMosaic.StableHlo

variable (m : (ℓ : Loc nD τ sig) → Buf (Elt Ideal) ℓ) (ρ : Dev nD → PrngReg)

open Cert.LibJoinedAxis

set_option maxHeartbeats 4000000 in
/-- The first endpoints' rows: the reference's gather of the second update's result at the first index array. -/
theorem endpoints1 (c : Dev nD) :
    W5 m ρ c (Proc.devRef .tc main_v39)
      = Host.gather Cert.ReferenceIdeal.gather_S100000x64_S500000x1_S500000x64_1_0_n_n_0_1_164
          (W4 m ρ c (Proc.devRef .tc main_v32)) (Cert.ReferenceIdeal.Read.val_main_v50 (F := Ideal) (m ((c : Thread nD τ).loc main_arg3))) := by
  show StableHlo.after hostOps2 (W4 m ρ c) (Proc.devRef .tc main_v39) = _
  after_results_simp
  rw [W4_arg3 m ρ c]
  rfl

set_option maxHeartbeats 4000000 in
/-- The second endpoints' rows, likewise at the second index array. -/
theorem endpoints2 (c : Dev nD) :
    W5 m ρ c (Proc.devRef .tc main_v46)
      = Host.gather Cert.ReferenceIdeal.gather_S100000x64_S500000x1_S500000x64_1_0_n_n_0_1_164
          (W4 m ρ c (Proc.devRef .tc main_v32)) (Cert.ReferenceIdeal.Read.val_main_v57 (F := Ideal) (m ((c : Thread nD τ).loc main_arg4))) := by
  show StableHlo.after hostOps2 (W4 m ρ c) (Proc.devRef .tc main_v46) = _
  after_results_simp
  rw [W4_arg4 m ρ c]
  rfl

set_option maxHeartbeats 4000000 in
/-- Rows 0–63 of the head's first weight matrix. -/
theorem block_a (c : Dev nD) :
    (W5 m ρ c (Proc.devRef .tc main_v47) : S64x64.Idx → EReal) = rowsAt 0 64 (by omega) ((m ((c : Thread nD τ).loc main_arg11)) : S192x64.Idx → EReal) := by
  show StableHlo.after hostOps2 (W4 m ρ c) (Proc.devRef .tc main_v47) = _
  after_results_simp
  rw [W4_arg11 m ρ c]
  exact slice_rows 0 _ _ (by omega)

set_option maxHeartbeats 4000000 in
/-- Rows 64–127. -/
theorem block_b (c : Dev nD) :
    (W5 m ρ c (Proc.devRef .tc main_v48) : S64x64.Idx → EReal) = rowsAt 64 64 (by omega) ((m ((c : Thread nD τ).loc main_arg11)) : S192x64.Idx → EReal) := by
  show StableHlo.after hostOps2 (W4 m ρ c) (Proc.devRef .tc main_v48) = _
  after_results_simp
  rw [W4_arg11 m ρ c]
  exact slice_rows 64 _ _ (by omega)

set_option maxHeartbeats 4000000 in
/-- Rows 128–191. -/
theorem block_c (c : Dev nD) :
    (W5 m ρ c (Proc.devRef .tc main_v49) : S64x64.Idx → EReal) = rowsAt 128 64 (by omega) ((m ((c : Thread nD τ).loc main_arg11)) : S192x64.Idx → EReal) := by
  show StableHlo.after hostOps2 (W4 m ρ c) (Proc.devRef .tc main_v49) = _
  after_results_simp
  rw [W4_arg11 m ρ c]
  exact slice_rows 128 _ _ (by omega)

end Cert.GraphNet.Stretches

end
-- ==== Proof.RefChains.lean ====
/-
  Three identities between stages of the reference.  Its second mean over incoming edges applies to the first dense
  update's result exactly the operations its first mean applies to the input features (the same normalisation of the
  source indices, gather, scatter-add over the destinations and quotient by the degree column), so it is the first-mean
  stage of that result.  The rows of the pair endpoints are one gather of the second update's result at each normalised
  index array.  Each is stated for an arbitrary array in the place of the update's result, so that the update itself is
  never opened.
-/
import proofs.«172559_j14190571946097_2_alg».proof.Proof.Gen.ReferenceIdeal.Read

noncomputable section

namespace Cert.GraphNet.RefChains

open Cert.ReferenceIdeal Cert.ReferenceIdeal.Read Idealize.ShloMosaic

/-- The reference's second mean is its first-mean stage of the first update's result: with that result named, the two
    sides are the same operations of it, of the edge indices and of the degree column. -/
theorem mean_again (x0 : (⟨S100000x64, .f32⟩ : BufTy).Contents (Elt Ideal)) (x1 x2 : (⟨S1600000, .i32⟩ : BufTy).Contents (Elt Ideal)) (x5 x6 : (⟨S64x64, .f32⟩ : BufTy).Contents (Elt Ideal)) (x7 : (⟨S64, .f32⟩ : BufTy).Contents (Elt Ideal)) :
    val_main_v37 (F := Ideal) x0 x1 x2 x5 x6 x7 = val_main_v18 (F := Ideal) (val_main_v25 (F := Ideal) x0 x1 x2 x5 x6 x7) x1 x2 := by
  unfold val_main_v37 val_main_v35 val_main_v32
  generalize val_main_v25 (F := Ideal) x0 x1 x2 x5 x6 x7 = feat
  rfl

/-- The second pair-endpoint index array is normalised by the operations that normalise the first. -/
theorem index2_of (x : (⟨S500000, .i32⟩ : BufTy).Contents (Elt Ideal)) : val_main_v57 (F := Ideal) x = val_main_v50 (F := Ideal) x := rfl

end Cert.GraphNet.RefChains

end
-- ==== Proof.Spec.lean ====
/-
  The mathematics of this certificate, on the extended reals, over arrays of any number of rows.

  One graph-convolution update with mean aggregation: for node features `feat` and aggregated neighbour
  features `nb` (both N × 64), weights `ws`, `wn` (64 × 64) and a bias `b`,
      sageUpdate feat nb ws wn b (p, q) = max ((Σ_k feat(p,k)·ws(k,q) + Σ_k nb(p,k)·wn(k,q)) + b q) 0.
  The pair head: for two P × 64 arrays of gathered node features, three 64 × 64 blocks of the first layer's
  weights, its bias, and the second layer's 64 × 2 weights and bias,
      pairHidden h1 h2 wa wb wc b (p, q) = max (((h1·wa + h2·wb) + |h1 − h2|·wc)(p,q) + b q) 0,
      pairOut hid w2 b2 (p, q) = Σ_k hid(p,k)·w2(k,q) + b2 q.
  Every entry of a result depends on ONE row of the row-indexed operands, which is what lets a result computed
  block of rows by block of rows be read as the whole array's function (the `_row` lemmas).
  The zero the maximum is taken against is kept as the value of the all-zero 32-bit word.
-/
import proofs.«172559_j14190571946097_2_alg».proof.Proof.LibMatmul
import proofs.«172559_j14190571946097_2_alg».proof.Proof.LibJoinedAxis
import Idealize.ShloMosaic.PureOps.Ideal
import Idealize.ShloMosaic.Lib.ValueIdx

noncomputable section

open scoped BigOperators

namespace Cert.GraphNet

open Idealize.ShloMosaic Idealize.ShloMosaic.ValueIdx Cert.LibMatmul Cert.LibJoinedAxis

/-- The maximum with zero, the zero being the value of the all-zero word. -/
def relu0 (x : EReal) : EReal := max x (Ideal.ofBits .f32 0x00000000#32)

/-- One dense graph-convolution update: relu (feat·ws + nb·wn + b), the bias added along the rows. -/
def sageUpdate {N : Nat} (feat nb : (⟨2, ![N, 64]⟩ : Shape).Idx → EReal) (ws wn : (⟨2, ![64, 64]⟩ : Shape).Idx → EReal)
    (b : (⟨1, ![64]⟩ : Shape).Idx → EReal) : (⟨2, ![N, 64]⟩ : Shape).Idx → EReal :=
  fun i => relu0 ((MM feat ws i + MM nb wn i) + b (ix1 (i 1)))

/-- The entrywise absolute difference of two arrays. -/
def absDiff {P : Nat} (h1 h2 : (⟨2, ![P, 64]⟩ : Shape).Idx → EReal) : (⟨2, ![P, 64]⟩ : Shape).Idx → EReal :=
  fun i => (FloatOps.absf (F := Ideal) (φ := .f32) (h1 i - h2 i) : EReal)

/-- The pair head's hidden layer: relu (h1·wa + h2·wb + |h1 − h2|·wc + b), the three products added left to right. -/
def pairHidden {P : Nat} (h1 h2 : (⟨2, ![P, 64]⟩ : Shape).Idx → EReal) (wa wb wc : (⟨2, ![64, 64]⟩ : Shape).Idx → EReal)
    (b : (⟨1, ![64]⟩ : Shape).Idx → EReal) : (⟨2, ![P, 64]⟩ : Shape).Idx → EReal :=
  fun i => relu0 (((MM h1 wa i + MM h2 wb i) + MM (absDiff h1 h2) wc i) + b (ix1 (i 1)))

/-- The pair head's output layer: hid·w2 + b2. -/
def pairOut {P : Nat} (hid : (⟨2, ![P, 64]⟩ : Shape).Idx → EReal) (w2 : (⟨2, ![64, 2]⟩ : Shape).Idx → EReal)
    (b2 : (⟨1, ![2]⟩ : Shape).Idx → EReal) : (⟨2, ![P, 2]⟩ : Shape).Idx → EReal :=
  fun i => MM hid w2 i + b2 (ix1 (i 1))

theorem sageUpdate_apply {N : Nat} (feat nb : (⟨2, ![N, 64]⟩ : Shape).Idx → EReal) (ws wn : (⟨2, ![64, 64]⟩ : Shape).Idx → EReal)
    (b : (⟨1, ![64]⟩ : Shape).Idx → EReal) (p : Fin N) (q : Fin 64) :
    sageUpdate feat nb ws wn b (ix2 p q) = relu0 ((MM feat ws (ix2 p q) + MM nb wn (ix2 p q)) + b (ix1 q)) := rfl

theorem pairHidden_apply {P : Nat} (h1 h2 : (⟨2, ![P, 64]⟩ : Shape).Idx → EReal) (wa wb wc : (⟨2, ![64, 64]⟩ : Shape).Idx → EReal)
    (b : (⟨1, ![64]⟩ : Shape).Idx → EReal) (p : Fin P) (q : Fin 64) :
    pairHidden h1 h2 wa wb wc b (ix2 p q)
      = relu0 (((MM h1 wa (ix2 p q) + MM h2 wb (ix2 p q)) + MM (absDiff h1 h2) wc (ix2 p q)) + b (ix1 q)) := rfl

theorem pairOut_apply {P : Nat} (hid : (⟨2, ![P, 64]⟩ : Shape).Idx → EReal) (w2 : (⟨2, ![64, 2]⟩ : Shape).Idx → EReal)
    (b2 : (⟨1, ![2]⟩ : Shape).Idx → EReal) (p : Fin P) (q : Fin 2) :
    pairOut hid w2 b2 (ix2 p q) = MM hid w2 (ix2 p q) + b2 (ix1 q) := rfl

/-- An entry of the update depends on that row of the features and of the neighbour features only. -/
theorem sageUpdate_row {N N' : Nat} (feat nb : (⟨2, ![N, 64]⟩ : Shape).Idx → EReal) (feat' nb' : (⟨2, ![N', 64]⟩ : Shape).Idx → EReal)
    (ws wn : (⟨2, ![64, 64]⟩ : Shape).Idx → EReal) (b : (⟨1, ![64]⟩ : Shape).Idx → EReal) (p : Fin N) (p' : Fin N') (q : Fin 64)
    (hf : ∀ k : Fin 64, feat (ix2 p k) = feat' (ix2 p' k)) (hn : ∀ k : Fin 64, nb (ix2 p k) = nb' (ix2 p' k)) :
    sageUpdate feat nb ws wn b (ix2 p q) = sageUpdate feat' nb' ws wn b (ix2 p' q) := by
  rw [sageUpdate_apply, sageUpdate_apply, MM_row feat feat' ws p p' q hf, MM_row nb nb' wn p p' q hn]

/-- An entry of the hidden layer depends on that row of the two gathered arrays only. -/
theorem pairHidden_row {P P' : Nat} (h1 h2 : (⟨2, ![P, 64]⟩ : Shape).Idx → EReal) (h1' h2' : (⟨2, ![P', 64]⟩ : Shape).Idx → EReal)
    (wa wb wc : (⟨2, ![64, 64]⟩ : Shape).Idx → EReal) (b : (⟨1, ![64]⟩ : Shape).Idx → EReal) (p : Fin P) (p' : Fin P') (q : Fin 64)
    (e1 : ∀ k : Fin 64, h1 (ix2 p k) = h1' (ix2 p' k)) (e2 : ∀ k : Fin 64, h2 (ix2 p k) = h2' (ix2 p' k)) :
    pairHidden h1 h2 wa wb wc b (ix2 p q) = pairHidden h1' h2' wa wb wc b (ix2 p' q) := by
  rw [pairHidden_apply, pairHidden_apply, MM_row h1 h1' wa p p' q e1, MM_row h2 h2' wb p p' q e2,
    MM_row (absDiff h1 h2) (absDiff h1' h2') wc p p' q (fun k => by show (FloatOps.absf (F := Ideal) (φ := .f32) _ : EReal) = FloatOps.absf (F := Ideal) (φ := .f32) _; rw [e1 k, e2 k])]

/-- An entry of the output layer depends on that row of the hidden layer only. -/
theorem pairOut_row {P P' : Nat} (hid : (⟨2, ![P, 64]⟩ : Shape).Idx → EReal) (hid' : (⟨2, ![P', 64]⟩ : Shape).Idx → EReal)
    (w2 : (⟨2, ![64, 2]⟩ : Shape).Idx → EReal) (b2 : (⟨1, ![2]⟩ : Shape).Idx → EReal) (p : Fin P) (p' : Fin P') (q : Fin 2)
    (e : ∀ k : Fin 64, hid (ix2 p k) = hid' (ix2 p' k)) :
    pairOut hid w2 b2 (ix2 p q) = pairOut hid' w2 b2 (ix2 p' q) := by
  rw [pairOut_apply, pairOut_apply, MM_row hid hid' w2 p p' q e]

end Cert.GraphNet

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.Region0.lean ====
/-
  The first graph-convolution update, block of rows by block of rows.

  The array of 100000 rows is cut into 20 blocks of 5000 consecutive rows.  At each block the body receives that
  block of the node features and of the aggregated neighbour features, together with the whole of the two weight
  matrices and of the bias, and leaves relu (feat·ws + nb·wn + b) of the block.  Every entry (p, q) of that result
  depends on row p of the two row-indexed operands only, so the block left at rows 5000·t … 5000·t + 4999 is those rows
  of the update of the whole arrays, and since the 20 blocks cover every row the output array ends holding the update of
  the whole arrays.
-/
import proofs.«172559_j14190571946097_2_alg».proof.Proof.Spec
import proofs.«172559_j14190571946097_2_alg».proof.Proof.LibRowOps
import proofs.«172559_j14190571946097_2_alg».proof.Proof.KernelIdealFrameP

noncomputable section

namespace Cert.GraphNet.Regions

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)
open Cert.LibMatmul Cert.LibJoinedAxis Cert.LibRowOps Cert.GraphNet

/-- The body's stored value is the update of its operands: the roundings to the narrower format are the identity on
    the extended reals, the two products into the zero accumulator are matrix products, and the bias laid out as one row
    and repeated down the rows reads the bias at the column. -/
theorem pay0 (x0 x1 : Vec Ideal S5000x64 .f32) (x2 x3 : Vec Ideal S64x64 .f32) (x4 : Vec Ideal S64 .f32) :
    k0_pay1 (F := Ideal) x0 x1 x2 x3 x4 = sageUpdate x0 x1 x2 x3 x4 := by
  have hm : ∀ (x : FVec Ideal S5000x64 .bf16) (w : FVec Ideal S64x64 .bf16),
      matmul dot_S5000x64_S64x64_S5000x64_1_0_0_1_n_n none x w (constant S5000x64 .f32 0x00000000#32) = MM x w :=
    fun x w => matmul_zero_eq dot_S5000x64_S64x64_S5000x64_1_0_0_1_n_n rfl rfl rfl rfl rfl rfl none x w
  unfold k0_pay1
  dsimp only
  rw [shapeCast_self x1 shapeCasts_S5000x64_S5000x64, hm, hm, row_bcast x4 shapeCasts_S64_S1x64 broadcasts_S1x64_S5000x64]
  funext i
  rfl

section
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- At one block, from what the body finds to what it leaves, entry by entry: when the two row-indexed operands are
    rows 5000·T … 5000·T + 4999 of two arrays of 100000 rows and the other three operands are the whole weights and bias,
    entry (p, q) of what the body leaves is entry (5000·T + p, q) of the update of the whole arrays, because that entry
    depends on row p of the row-indexed operands only. -/
theorem point0 (A0 A1 : (⟨2, ![100000, 64]⟩ : Shape).Idx → EReal) (A2 A3 : (⟨2, ![64, 64]⟩ : Shape).Idx → EReal)
    (A4 : (⟨1, ![64]⟩ : Shape).Idx → EReal)
    (x0 x1 : Vec Ideal S5000x64 .f32) (x2 x3 : Vec Ideal S64x64 .f32) (x4 : Vec Ideal S64 .f32)
    (T : Nat) (hT : T < 20)
    (h0 : ∀ (p : Fin 5000) (k : Fin 64), x0 (ix2 p k) = A0 (ix2 ⟨5000 * T + p.val, by have := p.isLt; omega⟩ k))
    (h1 : ∀ (p : Fin 5000) (k : Fin 64), x1 (ix2 p k) = A1 (ix2 ⟨5000 * T + p.val, by have := p.isLt; omega⟩ k))
    (h2 : x2 = A2) (h3 : x3 = A3) (h4 : x4 = A4) (p : Fin 5000) (q : Fin 64) :
    out0_5 (F := Ideal) x0 x1 x2 x3 x4 (ix2 p q)
      = sageUpdate A0 A1 A2 A3 A4 (ix2 ⟨5000 * T + p.val, by have := p.isLt; omega⟩ q) := by
  subst h2 h3 h4
  unfold out0_5
  rw [View.canon_unit_zero zeros2]
  simp only [View.ld_unit_zero (S := S5000x64) zeros2, View.ld_unit_zero (S := S64x64) zeros2,
    View.ld_unit_zero (S := S64) zeros1]
  rw [pay0]
  exact sageUpdate_row x0 x1 A0 A1 x2 x3 x4 p _ q (h0 p) (h1 p)

/-- The printed block-index maps, decided over the 20 grid points: the two row-indexed inputs and the output sit at
    block t of the rows and block 0 of the columns; the weights and the bias sit at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

end

section
variable (V : (c : Dev nD) → (b : Ref sig .tc) → Buf (Elt Ideal) ((c : Thread nD τ).loc b))

/-- The block of the node features at grid point t is rows 5000·t … 5000·t + 4999 of the array. -/
theorem rows0_0 (c : Dev nD) (t : Fin cfg0.N) (p : Fin 5000) (k : Fin 64) (r : Fin 100000) (hr : r.val = 5000 * t.val + p.val) :
    (iblk0 V c 0 t : Vec Ideal S5000x64 .f32) (ix2 p k)
      = (V c (Pipeline.arrRef spec0 0) : S100000x64.Idx → Elt Ideal .f32) (ix2 r k) := by
  obtain ⟨e0, e1, -⟩ := idx_facts0 t
  unfold iblk0
  rw [View.read_apply]
  show (V c (Pipeline.arrRef spec0 0) : S100000x64.Idx → Elt Ideal .f32) _ = _
  refine congrArg (V c (Pipeline.arrRef spec0 0) : S100000x64.Idx → Elt Ideal .f32) ?_
  funext a; apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The block of the aggregated neighbour features at grid point t is rows 5000·t … 5000·t + 4999 of the array. -/
theorem rows0_1 (c : Dev nD) (t : Fin cfg0.N) (p : Fin 5000) (k : Fin 64) (r : Fin 100000) (hr : r.val = 5000 * t.val + p.val) :
    (iblk0 V c 1 t : Vec Ideal S5000x64 .f32) (ix2 p k)
      = (V c (Pipeline.arrRef spec0 1) : S100000x64.Idx → Elt Ideal .f32) (ix2 r k) := by
  obtain ⟨-, -, e0, e1, -⟩ := idx_facts0 t
  unfold iblk0
  rw [View.read_apply]
  show (V c (Pipeline.arrRef spec0 1) : S100000x64.Idx → Elt Ideal .f32) _ = _
  refine congrArg (V c (Pipeline.arrRef spec0 1) : S100000x64.Idx → Elt Ideal .f32) ?_
  funext a; apply Fin.ext
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

/-- The block of the first weight matrix is the whole matrix at every grid point. -/
theorem whole0_2 (c : Dev nD) (t : Fin cfg0.N) :
    (iblk0 V c 2 t : Vec Ideal S64x64 .f32) = (V c (Pipeline.arrRef spec0 2) : S64x64.Idx → Elt Ideal .f32) := by
  obtain ⟨-, -, -, -, e0, e1, -⟩ := idx_facts0 t
  funext j
  unfold iblk0
  rw [View.read_apply]
  show (V c (Pipeline.arrRef spec0 2) : S64x64.Idx → Elt Ideal .f32) _ = _
  refine congrArg (V c (Pipeline.arrRef spec0 2) : S64x64.Idx → Elt Ideal .f32) ?_
  funext a; apply Fin.ext
  match a with
  | ⟨0, _⟩ => show win0_2.index t (0 : Fin 2) * 64 + 1 * (j 0).val = (j 0).val; rw [e0]; omega
  | ⟨1, _⟩ => show win0_2.index t (1 : Fin 2) * 64 + 1 * (j 1).val = (j 1).val; rw [e1]; omega

/-- The block of the second weight matrix is the whole matrix at every grid point. -/
theorem whole0_3 (c : Dev nD) (t : Fin cfg0.N) :
    (iblk0 V c 3 t : Vec Ideal S64x64 .f32) = (V c (Pipeline.arrRef spec0 3) : S64x64.Idx → Elt Ideal .f32) := by
  obtain ⟨-, -, -, -, -, -, e0, e1, -⟩ := idx_facts0 t
  funext j
  unfold iblk0
  rw [View.read_apply]
  show (V c (Pipeline.arrRef spec0 3) : S64x64.Idx → Elt Ideal .f32) _ = _
  refine congrArg (V c (Pipeline.arrRef spec0 3) : S64x64.Idx → Elt Ideal .f32) ?_
  funext a; apply Fin.ext
  match a with
  | ⟨0, _⟩ => show win0_3.index t (0 : Fin 2) * 64 + 1 * (j 0).val = (j 0).val; rw [e0]; omega
  | ⟨1, _⟩ => show win0_3.index t (1 : Fin 2) * 64 + 1 * (j 1).val = (j 1).val; rw [e1]; omega

/-- The block of the bias is the whole bias at every grid point. -/
theorem whole0_4 (c : Dev nD) (t : Fin cfg0.N) :
    (iblk0 V c 4 t : Vec Ideal S64 .f32) = (V c (Pipeline.arrRef spec0 4) : S64.Idx → Elt Ideal .f32) := by
  obtain ⟨-, -, -, -, -, -, -, -, e0, -⟩ := idx_facts0 t
  funext j
  unfold iblk0
  rw [View.read_apply]
  show (V c (Pipeline.arrRef spec0 4) : S64.Idx → Elt Ideal .f32) _ = _
  refine congrArg (V c (Pipeline.arrRef spec0 4) : S64.Idx → Elt Ideal .f32) ?_
  funext a; apply Fin.ext
  match a with
  | ⟨0, _⟩ => show win0_4.index t (0 : Fin 1) * 64 + 1 * (j 0).val = (j 0).val; rw [e0]; omega

/-- The update of the whole arrays the region finds. -/
abbrev upd0 (c : Dev nD) : S100000x64.Idx → Elt Ideal .f32 :=
  sageUpdate (N := 100000) (V c (Pipeline.arrRef spec0 0)) (V c (Pipeline.arrRef spec0 1)) (V c (Pipeline.arrRef spec0 2))
    (V c (Pipeline.arrRef spec0 3)) (V c (Pipeline.arrRef spec0 4))

/-- What grid point t writes back is rows 5000·t … 5000·t + 4999 of the update of the whole arrays. -/
theorem flushed0_eq (c : Dev nD) (t : Fin cfg0.N) :
    (dat0 (F := Ideal) V c).flushed 5 t = ((cfg0.win 5).blk t).view.read (Elt Ideal) (upd0 V c) := by
  have ht : t.val < 20 := lt_of_lt_of_eq t.isLt N_0
  obtain ⟨-, -, -, -, -, -, -, -, -, e0, e1⟩ := idx_facts0 t
  show (cfg0.win 5).cut (grid0.coords t) ((dat0 V c).after 5 t) = _
  rw [after0_5]
  funext j
  obtain ⟨p, q, rfl⟩ : ∃ (p : Fin 5000) (q : Fin 64), j = ix2 p q := ⟨j 0, j 1, eq_ix2 j⟩
  have he : ((cfg0.win 5).blk t).view.emb (ix2 p q)
      = (ix2 ⟨5000 * t.val + p.val, by have := p.isLt; omega⟩ q : S100000x64.Idx) := by
    funext a; apply Fin.ext
    match a with
    | ⟨0, _⟩ => show win0_5.index t (0 : Fin 2) * 5000 + 1 * p.val = 5000 * t.val + p.val; rw [e0]; omega
    | ⟨1, _⟩ => show win0_5.index t (1 : Fin 2) * 64 + 1 * q.val = q.val; rw [e1]; omega
  rw [View.read_apply, he]
  exact point0 (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t) t.val ht
    (fun p k => rows0_0 V c t p k _ rfl) (fun p k => rows0_1 V c t p k _ rfl)
    (whole0_2 V c t) (whole0_3 V c t) (whole0_4 V c t) p q

end

section
variable (V : (c : Dev nD) → (b : Ref sig .tc) → Buf (Elt Ideal) ((c : Thread nD τ).loc b))

/-- Every block of rows is some grid point's (decided over the grid). -/
theorem idx_onto0 : ∀ q0 : Fin 20, ∃ t : Fin cfg0.N, win0_5.index t = ![q0.val, 0] :=
  (by decide +kernel : ∀ q0 : Fin 20, ∃ t : Fin grid0.N, win0_5.index t = ![q0.val, 0])

/-- An index of the output array is in grid point t's block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v19).slice (win0_5.rect t)).set ↔ _
  rw [View.set_slice_whole, Rect.mem_set_unit]
  exact Iff.rfl

/-- Every index of the output array is in some grid point's block: row r is in the block of point r / 5000. -/
theorem cover0 (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The output array of the first update ends holding the update of the arrays the region finds. -/
theorem final0 (c : Dev nD) : (dat0 (F := Ideal) V c).arrAt 5 cfg0.N
    = sageUpdate (N := 100000) (V c (Pipeline.arrRef spec0 0)) (V c (Pipeline.arrRef spec0 1)) (V c (Pipeline.arrRef spec0 2))
        (V c (Pipeline.arrRef spec0 3)) (V c (Pipeline.arrRef spec0 4)) :=
  (dat0 (F := Ideal) V c).arrAt_eq_of_cover 5 (upd0 V c) (fun t _ => flushed0_eq V c t) cover0

end

end Cert.GraphNet.Regions

end
-- ==== Proof.Region1.lean ====
/-
  The second graph-convolution update, block of rows by block of rows.

  The array of 100000 rows is cut into 20 blocks of 5000 consecutive rows.  At each block the body receives that
  block of the node features and of the aggregated neighbour features, together with the whole of the two weight
  matrices and of the bias, and leaves relu (feat·ws + nb·wn + b) of the block.  Every entry (p, q) of that result
  depends on row p of the two row-indexed operands only, so the block left at rows 5000·t … 5000·t + 4999 is those rows
  of the update of the whole arrays, and since the 20 blocks cover every row the output array ends holding the update of
  the whole arrays.
-/
import proofs.«172559_j14190571946097_2_alg».proof.Proof.Spec
import proofs.«172559_j14190571946097_2_alg».proof.Proof.LibRowOps
import proofs.«172559_j14190571946097_2_alg».proof.Proof.KernelIdealFrameP

noncomputable section

namespace Cert.GraphNet.Regions

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)
open Cert.LibMatmul Cert.LibJoinedAxis Cert.LibRowOps Cert.GraphNet

/-- The body's stored value is the update of its operands: the roundings to the narrower format are the identity on
    the extended reals, the two products into the zero accumulator are matrix products, and the bias laid out as one row
    and repeated down the rows reads the bias at the column. -/
theorem pay1 (x0 x1 : Vec Ideal S5000x64 .f32) (x2 x3 : Vec Ideal S64x64 .f32) (x4 : Vec Ideal S64 .f32) :
    k1_pay1 (F := Ideal) x0 x1 x2 x3 x4 = sageUpdate x0 x1 x2 x3 x4 := by
  have hm : ∀ (x : FVec Ideal S5000x64 .bf16) (w : FVec Ideal S64x64 .bf16),
      matmul dot_S5000x64_S64x64_S5000x64_1_0_0_1_n_n none x w (constant S5000x64 .f32 0x00000000#32) = MM x w :=
    fun x w => matmul_zero_eq dot_S5000x64_S64x64_S5000x64_1_0_0_1_n_n rfl rfl rfl rfl rfl rfl none x w
  unfold k1_pay1
  dsimp only
  rw [shapeCast_self x0 shapeCasts_S5000x64_S5000x64, shapeCast_self x1 shapeCasts_S5000x64_S5000x64, hm, hm, row_bcast x4 shapeCasts_S64_S1x64 broadcasts_S1x64_S5000x64]
  funext i
  rfl

section
variable (V : (c : Dev nD) → (b : Ref sig .tc) → Buf (Elt Ideal) ((c : Thread nD τ).loc b))

theorem zeros2b : (![0, 0] : Fin 2 → Nat) = fun _ => 0 := funext fun a => by fin_cases a <;> rfl
theorem zeros1b : (![0] : Fin 1 → Nat) = fun _ => 0 := funext fun a => by fin_cases a <;> rfl

/-- At one block, from what the body finds to what it leaves, entry by entry: when the two row-indexed operands are
    rows 5000·T … 5000·T + 4999 of two arrays of 100000 rows and the other three operands are the whole weights and bias,
    entry (p, q) of what the body leaves is entry (5000·T + p, q) of the update of the whole arrays, because that entry
    depends on row p of the row-indexed operands only. -/
theorem point1 (A0 A1 : (⟨2, ![100000, 64]⟩ : Shape).Idx → EReal) (A2 A3 : (⟨2, ![64, 64]⟩ : Shape).Idx → EReal)
    (A4 : (⟨1, ![64]⟩ : Shape).Idx → EReal)
    (x0 x1 : Vec Ideal S5000x64 .f32) (x2 x3 : Vec Ideal S64x64 .f32) (x4 : Vec Ideal S64 .f32)
    (T : Nat) (hT : T < 20)
    (h0 : ∀ (p : Fin 5000) (k : Fin 64), x0 (ix2 p k) = A0 (ix2 ⟨5000 * T + p.val, by have := p.isLt; omega⟩ k))
    (h1 : ∀ (p : Fin 5000) (k : Fin 64), x1 (ix2 p k) = A1 (ix2 ⟨5000 * T + p.val, by have := p.isLt; omega⟩ k))
    (h2 : x2 = A2) (h3 : x3 = A3) (h4 : x4 = A4) (p : Fin 5000) (q : Fin 64) :
    out1_5 (F := Ideal) x0 x1 x2 x3 x4 (ix2 p q)
      = sageUpdate A0 A1 A2 A3 A4 (ix2 ⟨5000 * T + p.val, by have := p.isLt; omega⟩ q) := by
  subst h2 h3 h4
  unfold out1_5
  rw [View.canon_unit_zero zeros2b]
  simp only [View.ld_unit_zero (S := S5000x64) zeros2b, View.ld_unit_zero (S := S64x64) zeros2b,
    View.ld_unit_zero (S := S64) zeros1b]
  rw [pay1]
  exact sageUpdate_row x0 x1 A0 A1 x2 x3 x4 p _ q (h0 p) (h1 p)

/-- The printed block-index maps, decided over the 20 grid points: the two row-indexed inputs and the output sit at
    block t of the rows and block 0 of the columns; the weights and the bias sit at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

end

section
variable (V : (c : Dev nD) → (b : Ref sig .tc) → Buf (Elt Ideal) ((c : Thread nD τ).loc b))

/-- The block of the node features at grid point t is rows 5000·t … 5000·t + 4999 of the array. -/
theorem rows1_0 (c : Dev nD) (t : Fin cfg1.N) (p : Fin 5000) (k : Fin 64) (r : Fin 100000) (hr : r.val = 5000 * t.val + p.val) :
    (iblk1 V c 0 t : Vec Ideal S5000x64 .f32) (ix2 p k)
      = (V c (Pipeline.arrRef spec1 0) : S100000x64.Idx → Elt Ideal .f32) (ix2 r k) := by
  obtain ⟨e0, e1, -⟩ := idx_facts1 t
  unfold iblk1
  rw [View.read_apply]
  show (V c (Pipeline.arrRef spec1 0) : S100000x64.Idx → Elt Ideal .f32) _ = _
  refine congrArg (V c (Pipeline.arrRef spec1 0) : S100000x64.Idx → Elt Ideal .f32) ?_
  funext a; apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The block of the aggregated neighbour features at grid point t is rows 5000·t … 5000·t + 4999 of the array. -/
theorem rows1_1 (c : Dev nD) (t : Fin cfg1.N) (p : Fin 5000) (k : Fin 64) (r : Fin 100000) (hr : r.val = 5000 * t.val + p.val) :
    (iblk1 V c 1 t : Vec Ideal S5000x64 .f32) (ix2 p k)
      = (V c (Pipeline.arrRef spec1 1) : S100000x64.Idx → Elt Ideal .f32) (ix2 r k) := by
  obtain ⟨-, -, e0, e1, -⟩ := idx_facts1 t
  unfold iblk1
  rw [View.read_apply]
  show (V c (Pipeline.arrRef spec1 1) : S100000x64.Idx → Elt Ideal .f32) _ = _
  refine congrArg (V c (Pipeline.arrRef spec1 1) : S100000x64.Idx → Elt Ideal .f32) ?_
  funext a; apply Fin.ext
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

/-- The block of the first weight matrix is the whole matrix at every grid point. -/
theorem whole1_2 (c : Dev nD) (t : Fin cfg1.N) :
    (iblk1 V c 2 t : Vec Ideal S64x64 .f32) = (V c (Pipeline.arrRef spec1 2) : S64x64.Idx → Elt Ideal .f32) := by
  obtain ⟨-, -, -, -, e0, e1, -⟩ := idx_facts1 t
  funext j
  unfold iblk1
  rw [View.read_apply]
  show (V c (Pipeline.arrRef spec1 2) : S64x64.Idx → Elt Ideal .f32) _ = _
  refine congrArg (V c (Pipeline.arrRef spec1 2) : S64x64.Idx → Elt Ideal .f32) ?_
  funext a; apply Fin.ext
  match a with
  | ⟨0, _⟩ => show win1_2.index t (0 : Fin 2) * 64 + 1 * (j 0).val = (j 0).val; rw [e0]; omega
  | ⟨1, _⟩ => show win1_2.index t (1 : Fin 2) * 64 + 1 * (j 1).val = (j 1).val; rw [e1]; omega

/-- The block of the second weight matrix is the whole matrix at every grid point. -/
theorem whole1_3 (c : Dev nD) (t : Fin cfg1.N) :
    (iblk1 V c 3 t : Vec Ideal S64x64 .f32) = (V c (Pipeline.arrRef spec1 3) : S64x64.Idx → Elt Ideal .f32) := by
  obtain ⟨-, -, -, -, -, -, e0, e1, -⟩ := idx_facts1 t
  funext j
  unfold iblk1
  rw [View.read_apply]
  show (V c (Pipeline.arrRef spec1 3) : S64x64.Idx → Elt Ideal .f32) _ = _
  refine congrArg (V c (Pipeline.arrRef spec1 3) : S64x64.Idx → Elt Ideal .f32) ?_
  funext a; apply Fin.ext
  match a with
  | ⟨0, _⟩ => show win1_3.index t (0 : Fin 2) * 64 + 1 * (j 0).val = (j 0).val; rw [e0]; omega
  | ⟨1, _⟩ => show win1_3.index t (1 : Fin 2) * 64 + 1 * (j 1).val = (j 1).val; rw [e1]; omega

/-- The block of the bias is the whole bias at every grid point. -/
theorem whole1_4 (c : Dev nD) (t : Fin cfg1.N) :
    (iblk1 V c 4 t : Vec Ideal S64 .f32) = (V c (Pipeline.arrRef spec1 4) : S64.Idx → Elt Ideal .f32) := by
  obtain ⟨-, -, -, -, -, -, -, -, e0, -⟩ := idx_facts1 t
  funext j
  unfold iblk1
  rw [View.read_apply]
  show (V c (Pipeline.arrRef spec1 4) : S64.Idx → Elt Ideal .f32) _ = _
  refine congrArg (V c (Pipeline.arrRef spec1 4) : S64.Idx → Elt Ideal .f32) ?_
  funext a; apply Fin.ext
  match a with
  | ⟨0, _⟩ => show win1_4.index t (0 : Fin 1) * 64 + 1 * (j 0).val = (j 0).val; rw [e0]; omega

/-- The update of the whole arrays the region finds. -/
abbrev upd1 (c : Dev nD) : S100000x64.Idx → Elt Ideal .f32 :=
  sageUpdate (N := 100000) (V c (Pipeline.arrRef spec1 0)) (V c (Pipeline.arrRef spec1 1)) (V c (Pipeline.arrRef spec1 2))
    (V c (Pipeline.arrRef spec1 3)) (V c (Pipeline.arrRef spec1 4))

/-- What grid point t writes back is rows 5000·t … 5000·t + 4999 of the update of the whole arrays. -/
theorem flushed1_eq (c : Dev nD) (t : Fin cfg1.N) :
    (dat1 (F := Ideal) V c).flushed 5 t = ((cfg1.win 5).blk t).view.read (Elt Ideal) (upd1 V c) := by
  have ht : t.val < 20 := lt_of_lt_of_eq t.isLt N_1
  obtain ⟨-, -, -, -, -, -, -, -, -, e0, e1⟩ := idx_facts1 t
  show (cfg1.win 5).cut (grid1.coords t) ((dat1 V c).after 5 t) = _
  rw [after1_5]
  funext j
  obtain ⟨p, q, rfl⟩ : ∃ (p : Fin 5000) (q : Fin 64), j = ix2 p q := ⟨j 0, j 1, eq_ix2 j⟩
  have he : ((cfg1.win 5).blk t).view.emb (ix2 p q)
      = (ix2 ⟨5000 * t.val + p.val, by have := p.isLt; omega⟩ q : S100000x64.Idx) := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  rw [View.read_apply, he]
  exact point1 (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) t.val ht
    (fun p k => rows1_0 V c t p k _ rfl) (fun p k => rows1_1 V c t p k _ rfl)
    (whole1_2 V c t) (whole1_3 V c t) (whole1_4 V c t) p q

end

section
variable (V : (c : Dev nD) → (b : Ref sig .tc) → Buf (Elt Ideal) ((c : Thread nD τ).loc b))

/-- Every block of rows is some grid point's (decided over the grid). -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- An index of the output array is in grid point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v32).slice (win1_5.rect t)).set ↔ _
  rw [View.set_slice_whole, Rect.mem_set_unit]
  exact Iff.rfl

/-- Every index of the output array is in some grid point's block: row r is in the block of point r / 5000. -/
theorem cover1 (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The output array of the second update ends holding the update of the arrays the region finds. -/
theorem final1 (c : Dev nD) : (dat1 (F := Ideal) V c).arrAt 5 cfg1.N
    = sageUpdate (N := 100000) (V c (Pipeline.arrRef spec1 0)) (V c (Pipeline.arrRef spec1 1)) (V c (Pipeline.arrRef spec1 2))
        (V c (Pipeline.arrRef spec1 3)) (V c (Pipeline.arrRef spec1 4)) :=
  (dat1 (F := Ideal) V c).arrAt_eq_of_cover 5 (upd1 V c) (fun t _ => flushed1_eq V c t) cover1

end

end Cert.GraphNet.Regions

end
-- ==== Proof.Region2.lean ====
/-
  The pair head, block of rows by block of rows.

  The two gathered arrays of 500000 rows are cut into 100 blocks of 5000 consecutive rows.  At each block the body
  receives that block of each of the two arrays, together with the whole of the three 64 × 64 weight blocks, of the
  first bias, of the 64 × 2 output weights and of the second bias, and leaves
      relu (h1·A + h2·B + |h1 − h2|·C + b)·W + b'
  of the block: 5000 rows of two entries.  Every entry (p, q) of that result depends on row p of the two gathered
  arrays only, so the block left at rows 5000·t … 5000·t + 4999 is those rows of the pair head of the whole arrays, and
  since the 100 blocks cover every row the output array ends holding the pair head of the whole arrays.
-/
import proofs.«172559_j14190571946097_2_alg».proof.Proof.Spec
import proofs.«172559_j14190571946097_2_alg».proof.Proof.LibRowOps
import proofs.«172559_j14190571946097_2_alg».proof.Proof.KernelIdealFrameP

noncomputable section

namespace Cert.GraphNet.Regions

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)
open Cert.LibMatmul Cert.LibJoinedAxis Cert.LibRowOps Cert.GraphNet

/-- The body's stored value is the pair head of its operands: the roundings to the narrower format are the identity on
    the extended reals, the four products into the zero accumulator are matrix products, each bias laid out as one row
    and repeated down the rows reads the bias at the column, and the three products of the hidden layer are added left
    to right. -/
theorem pay2 (x0 x1 : Vec Ideal S5000x64 .f32) (x2 x3 x4 : Vec Ideal S64x64 .f32) (x5 : Vec Ideal S64 .f32)
    (x6 : Vec Ideal S64x2 .f32) (x7 : Vec Ideal S2 .f32) :
    k2_pay1 (F := Ideal) x0 x1 x2 x3 x4 x5 x6 x7 = pairOut (pairHidden x0 x1 x2 x3 x4 x5) x6 x7 := by
  have hm : ∀ (x : FVec Ideal S5000x64 .bf16) (w : FVec Ideal S64x64 .bf16),
      matmul dot_S5000x64_S64x64_S5000x64_1_0_0_1_n_n none x w (constant S5000x64 .f32 0x00000000#32) = MM x w :=
    fun x w => matmul_zero_eq dot_S5000x64_S64x64_S5000x64_1_0_0_1_n_n rfl rfl rfl rfl rfl rfl none x w
  have hm2 : ∀ (x : FVec Ideal S5000x64 .bf16) (w : FVec Ideal S64x2 .bf16),
      matmul dot_S5000x64_S64x2_S5000x2_1_0_0_1_n_n none x w (constant S5000x2 .f32 0x00000000#32) = MM x w :=
    fun x w => matmul_zero_eq dot_S5000x64_S64x2_S5000x2_1_0_0_1_n_n rfl rfl rfl rfl rfl rfl none x w
  unfold k2_pay1
  dsimp only
  rw [shapeCast_self x0 shapeCasts_S5000x64_S5000x64, shapeCast_self x1 shapeCasts_S5000x64_S5000x64,
    shapeCast_self x2 shapeCasts_S64x64_S64x64, shapeCast_self x3 shapeCasts_S64x64_S64x64,
    shapeCast_self x4 shapeCasts_S64x64_S64x64, hm, hm, hm, hm2,
    row_bcast x5 shapeCasts_S64_S1x64 broadcasts_S1x64_S5000x64, row_bcast x7 shapeCasts_S2_S1x2 broadcasts_S1x2_S5000x2]
  funext i
  rfl

section
variable (V : (c : Dev nD) → (b : Ref sig .tc) → Buf (Elt Ideal) ((c : Thread nD τ).loc b))

theorem zero2_2 : (![0, 0] : Fin 2 → Nat) = fun _ => 0 := funext fun a => by fin_cases a <;> rfl
theorem zero2_1 : (![0] : Fin 1 → Nat) = fun _ => 0 := funext fun a => by fin_cases a <;> rfl

/-- At one block, from what the body finds to what it leaves, entry by entry: when the two row-indexed operands are
    rows 5000·T … 5000·T + 4999 of two arrays of 500000 rows and the other six operands are the whole weights and biases,
    entry (p, q) of what the body leaves is entry (5000·T + p, q) of the pair head of the whole arrays, because that entry
    depends on row p of the hidden layer only, and row p of the hidden layer on row p of the two row-indexed operands. -/
theorem point2 (A0 A1 : (⟨2, ![500000, 64]⟩ : Shape).Idx → EReal) (A2 A3 A4 : (⟨2, ![64, 64]⟩ : Shape).Idx → EReal)
    (A5 : (⟨1, ![64]⟩ : Shape).Idx → EReal) (A6 : (⟨2, ![64, 2]⟩ : Shape).Idx → EReal) (A7 : (⟨1, ![2]⟩ : Shape).Idx → EReal)
    (x0 x1 : Vec Ideal S5000x64 .f32) (x2 x3 x4 : Vec Ideal S64x64 .f32) (x5 : Vec Ideal S64 .f32)
    (x6 : Vec Ideal S64x2 .f32) (x7 : Vec Ideal S2 .f32)
    (T : Nat) (hT : T < 100)
    (h0 : ∀ (p : Fin 5000) (k : Fin 64), x0 (ix2 p k) = A0 (ix2 ⟨5000 * T + p.val, by have := p.isLt; omega⟩ k))
    (h1 : ∀ (p : Fin 5000) (k : Fin 64), x1 (ix2 p k) = A1 (ix2 ⟨5000 * T + p.val, by have := p.isLt; omega⟩ k))
    (h2 : x2 = A2) (h3 : x3 = A3) (h4 : x4 = A4) (h5 : x5 = A5) (h6 : x6 = A6) (h7 : x7 = A7) (p : Fin 5000) (q : Fin 2) :
    out2_8 (F := Ideal) x0 x1 x2 x3 x4 x5 x6 x7 (ix2 p q)
      = pairOut (pairHidden A0 A1 A2 A3 A4 A5) A6 A7 (ix2 ⟨5000 * T + p.val, by have := p.isLt; omega⟩ q) := by
  subst h2 h3 h4 h5 h6 h7
  unfold out2_8
  rw [View.canon_unit_zero zero2_2]
  simp only [View.ld_unit_zero (S := S5000x64) zero2_2, View.ld_unit_zero (S := S64x64) zero2_2,
    View.ld_unit_zero (S := S64) zero2_1, View.ld_unit_zero (S := S64x2) zero2_2, View.ld_unit_zero (S := S2) zero2_1]
  rw [pay2]
  exact pairOut_row (pairHidden x0 x1 x2 x3 x4 x5) (pairHidden A0 A1 x2 x3 x4 x5) x6 x7 p _ q
    (fun k => pairHidden_row x0 x1 A0 A1 x2 x3 x4 x5 p _ k (h0 p) (h1 p))

/-! The printed block-index maps, decided over the 100 grid points: the two row-indexed inputs and the output sit at
    block t of the rows and block 0 of the columns; the weights and the biases sit at block 0. -/

theorem idx_rows2_0 : ∀ t : Fin cfg2.N, win2_0.index t (0 : Fin 2) = t.val ∧ win2_0.index t (1 : Fin 2) = 0 :=
  (by decide +kernel : ∀ t : Fin grid2.N, _)
theorem idx_rows2_1 : ∀ t : Fin cfg2.N, win2_1.index t (0 : Fin 2) = t.val ∧ win2_1.index t (1 : Fin 2) = 0 :=
  (by decide +kernel : ∀ t : Fin grid2.N, _)
theorem idx_whole2_2 : ∀ t : Fin cfg2.N, win2_2.index t (0 : Fin 2) = 0 ∧ win2_2.index t (1 : Fin 2) = 0 :=
  (by decide +kernel : ∀ t : Fin grid2.N, _)
theorem idx_whole2_3 : ∀ t : Fin cfg2.N, win2_3.index t (0 : Fin 2) = 0 ∧ win2_3.index t (1 : Fin 2) = 0 :=
  (by decide +kernel : ∀ t : Fin grid2.N, _)
theorem idx_whole2_4 : ∀ t : Fin cfg2.N, win2_4.index t (0 : Fin 2) = 0 ∧ win2_4.index t (1 : Fin 2) = 0 :=
  (by decide +kernel : ∀ t : Fin grid2.N, _)
theorem idx_whole2_5 : ∀ t : Fin cfg2.N, win2_5.index t (0 : Fin 1) = 0 :=
  (by decide +kernel : ∀ t : Fin grid2.N, _)
theorem idx_whole2_6 : ∀ t : Fin cfg2.N, win2_6.index t (0 : Fin 2) = 0 ∧ win2_6.index t (1 : Fin 2) = 0 :=
  (by decide +kernel : ∀ t : Fin grid2.N, _)
theorem idx_whole2_7 : ∀ t : Fin cfg2.N, win2_7.index t (0 : Fin 1) = 0 :=
  (by decide +kernel : ∀ t : Fin grid2.N, _)
theorem idx_rows2_8 : ∀ t : Fin cfg2.N, win2_8.index t (0 : Fin 2) = t.val ∧ win2_8.index t (1 : Fin 2) = 0 :=
  (by decide +kernel : ∀ t : Fin grid2.N, _)

end

section
variable (V : (c : Dev nD) → (b : Ref sig .tc) → Buf (Elt Ideal) ((c : Thread nD τ).loc b))

/-- The block of the first gathered array at grid point t is rows 5000·t … 5000·t + 4999 of the array. -/
theorem rows2_0 (c : Dev nD) (t : Fin cfg2.N) (p : Fin 5000) (k : Fin 64) (r : Fin 500000) (hr : r.val = 5000 * t.val + p.val) :
    (iblk2 V c 0 t : Vec Ideal S5000x64 .f32) (ix2 p k)
      = (V c (Pipeline.arrRef spec2 0) : S500000x64.Idx → Elt Ideal .f32) (ix2 r k) := by
  obtain ⟨e0, e1⟩ := idx_rows2_0 t
  unfold iblk2
  rw [View.read_apply]
  show (V c (Pipeline.arrRef spec2 0) : S500000x64.Idx → Elt Ideal .f32) _ = _
  refine congrArg (V c (Pipeline.arrRef spec2 0) : S500000x64.Idx → Elt Ideal .f32) ?_
  funext a; apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- The block of the second gathered array at grid point t is rows 5000·t … 5000·t + 4999 of the array. -/
theorem rows2_1 (c : Dev nD) (t : Fin cfg2.N) (p : Fin 5000) (k : Fin 64) (r : Fin 500000) (hr : r.val = 5000 * t.val + p.val) :
    (iblk2 V c 1 t : Vec Ideal S5000x64 .f32) (ix2 p k)
      = (V c (Pipeline.arrRef spec2 1) : S500000x64.Idx → Elt Ideal .f32) (ix2 r k) := by
  obtain ⟨e0, e1⟩ := idx_rows2_1 t
  unfold iblk2
  rw [View.read_apply]
  show (V c (Pipeline.arrRef spec2 1) : S500000x64.Idx → Elt Ideal .f32) _ = _
  refine congrArg (V c (Pipeline.arrRef spec2 1) : S500000x64.Idx → Elt Ideal .f32) ?_
  funext a; apply Fin.ext
  match a with
  | ⟨0, _⟩ => show win2_1.index t (0 : Fin 2) * 5000 + 1 * p.val = r.val; rw [e0, hr]; omega
  | ⟨1, _⟩ => show win2_1.index t (1 : Fin 2) * 64 + 1 * k.val = k.val; rw [e1]; omega

/-- The block of the first weight block is the whole of it at every grid point. -/
theorem whole2_2 (c : Dev nD) (t : Fin cfg2.N) :
    (iblk2 V c 2 t : Vec Ideal S64x64 .f32) = (V c (Pipeline.arrRef spec2 2) : S64x64.Idx → Elt Ideal .f32) := by
  obtain ⟨e0, e1⟩ := idx_whole2_2 t
  funext j
  unfold iblk2
  rw [View.read_apply]
  show (V c (Pipeline.arrRef spec2 2) : S64x64.Idx → Elt Ideal .f32) _ = _
  refine congrArg (V c (Pipeline.arrRef spec2 2) : S64x64.Idx → Elt Ideal .f32) ?_
  funext a; apply Fin.ext
  match a with
  | ⟨0, _⟩ => show win2_2.index t (0 : Fin 2) * 64 + 1 * (j 0).val = (j 0).val; rw [e0]; omega
  | ⟨1, _⟩ => show win2_2.index t (1 : Fin 2) * 64 + 1 * (j 1).val = (j 1).val; rw [e1]; omega

/-- The block of the second weight block is the whole of it at every grid point. -/
theorem whole2_3 (c : Dev nD) (t : Fin cfg2.N) :
    (iblk2 V c 3 t : Vec Ideal S64x64 .f32) = (V c (Pipeline.arrRef spec2 3) : S64x64.Idx → Elt Ideal .f32) := by
  obtain ⟨e0, e1⟩ := idx_whole2_3 t
  funext j
  unfold iblk2
  rw [View.read_apply]
  show (V c (Pipeline.arrRef spec2 3) : S64x64.Idx → Elt Ideal .f32) _ = _
  refine congrArg (V c (Pipeline.arrRef spec2 3) : S64x64.Idx → Elt Ideal .f32) ?_
  funext a; apply Fin.ext
  match a with
  | ⟨0, _⟩ => show win2_3.index t (0 : Fin 2) * 64 + 1 * (j 0).val = (j 0).val; rw [e0]; omega
  | ⟨1, _⟩ => show win2_3.index t (1 : Fin 2) * 64 + 1 * (j 1).val = (j 1).val; rw [e1]; omega

/-- The block of the third weight block is the whole of it at every grid point. -/
theorem whole2_4 (c : Dev nD) (t : Fin cfg2.N) :
    (iblk2 V c 4 t : Vec Ideal S64x64 .f32) = (V c (Pipeline.arrRef spec2 4) : S64x64.Idx → Elt Ideal .f32) := by
  obtain ⟨e0, e1⟩ := idx_whole2_4 t
  funext j
  unfold iblk2
  rw [View.read_apply]
  show (V c (Pipeline.arrRef spec2 4) : S64x64.Idx → Elt Ideal .f32) _ = _
  refine congrArg (V c (Pipeline.arrRef spec2 4) : S64x64.Idx → Elt Ideal .f32) ?_
  funext a; apply Fin.ext
  match a with
  | ⟨0, _⟩ => show win2_4.index t (0 : Fin 2) * 64 + 1 * (j 0).val = (j 0).val; rw [e0]; omega
  | ⟨1, _⟩ => show win2_4.index t (1 : Fin 2) * 64 + 1 * (j 1).val = (j 1).val; rw [e1]; omega

/-- The block of the hidden layer's bias is the whole of it at every grid point. -/
theorem whole2_5 (c : Dev nD) (t : Fin cfg2.N) :
    (iblk2 V c 5 t : Vec Ideal S64 .f32) = (V c (Pipeline.arrRef spec2 5) : S64.Idx → Elt Ideal .f32) := by
  have e0 := idx_whole2_5 t
  funext j
  unfold iblk2
  rw [View.read_apply]
  show (V c (Pipeline.arrRef spec2 5) : S64.Idx → Elt Ideal .f32) _ = _
  refine congrArg (V c (Pipeline.arrRef spec2 5) : S64.Idx → Elt Ideal .f32) ?_
  funext a; apply Fin.ext
  match a with
  | ⟨0, _⟩ => show win2_5.index t (0 : Fin 1) * 64 + 1 * (j 0).val = (j 0).val; rw [e0]; omega

/-- The block of the output weights is the whole of it at every grid point. -/
theorem whole2_6 (c : Dev nD) (t : Fin cfg2.N) :
    (iblk2 V c 6 t : Vec Ideal S64x2 .f32) = (V c (Pipeline.arrRef spec2 6) : S64x2.Idx → Elt Ideal .f32) := by
  obtain ⟨e0, e1⟩ := idx_whole2_6 t
  funext j
  unfold iblk2
  rw [View.read_apply]
  show (V c (Pipeline.arrRef spec2 6) : S64x2.Idx → Elt Ideal .f32) _ = _
  refine congrArg (V c (Pipeline.arrRef spec2 6) : S64x2.Idx → Elt Ideal .f32) ?_
  funext a; apply Fin.ext
  match a with
  | ⟨0, _⟩ => show win2_6.index t (0 : Fin 2) * 64 + 1 * (j 0).val = (j 0).val; rw [e0]; omega
  | ⟨1, _⟩ => show win2_6.index t (1 : Fin 2) * 2 + 1 * (j 1).val = (j 1).val; rw [e1]; omega

/-- The block of the output bias is the whole of it at every grid point. -/
theorem whole2_7 (c : Dev nD) (t : Fin cfg2.N) :
    (iblk2 V c 7 t : Vec Ideal S2 .f32) = (V c (Pipeline.arrRef spec2 7) : S2.Idx → Elt Ideal .f32) := by
  have e0 := idx_whole2_7 t
  funext j
  unfold iblk2
  rw [View.read_apply]
  show (V c (Pipeline.arrRef spec2 7) : S2.Idx → Elt Ideal .f32) _ = _
  refine congrArg (V c (Pipeline.arrRef spec2 7) : S2.Idx → Elt Ideal .f32) ?_
  funext a; apply Fin.ext
  match a with
  | ⟨0, _⟩ => show win2_7.index t (0 : Fin 1) * 2 + 1 * (j 0).val = (j 0).val; rw [e0]; omega

/-- The pair head of the whole arrays the region finds. -/
abbrev head2 (c : Dev nD) : S500000x2.Idx → Elt Ideal .f32 :=
  pairOut (P := 500000) (pairHidden (P := 500000) (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)))
    (V c (Pipeline.arrRef spec2 6)) (V c (Pipeline.arrRef spec2 7))

/-- What grid point t writes back is rows 5000·t … 5000·t + 4999 of the pair head of the whole arrays. -/
theorem flushed2_eq (c : Dev nD) (t : Fin cfg2.N) :
    (dat2 (F := Ideal) V c).flushed 8 t = ((cfg2.win 8).blk t).view.read (Elt Ideal) (head2 V c) := by
  have ht : t.val < 100 := lt_of_lt_of_eq t.isLt N_2
  obtain ⟨e0, e1⟩ := idx_rows2_8 t
  show (cfg2.win 8).cut (grid2.coords t) ((dat2 V c).after 8 t) = _
  rw [after2_8]
  funext j
  obtain ⟨p, q, rfl⟩ : ∃ (p : Fin 5000) (q : Fin 2), j = ix2 p q := ⟨j 0, j 1, eq_ix2 j⟩
  have he : ((cfg2.win 8).blk t).view.emb (ix2 p q)
      = (ix2 ⟨5000 * t.val + p.val, by have := p.isLt; omega⟩ q : S500000x2.Idx) := by
    funext a; apply Fin.ext
    match a with
    | ⟨0, _⟩ => show win2_8.index t (0 : Fin 2) * 5000 + 1 * p.val = 5000 * t.val + p.val; rw [e0]; omega
    | ⟨1, _⟩ => show win2_8.index t (1 : Fin 2) * 2 + 1 * q.val = q.val; rw [e1]; omega
  rw [View.read_apply, he]
  exact point2 (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7))
    (iblk2 V c 0 t) (iblk2 V c 1 t) (iblk2 V c 2 t) (iblk2 V c 3 t) (iblk2 V c 4 t) (iblk2 V c 5 t) (iblk2 V c 6 t) (iblk2 V c 7 t)
    t.val ht (fun p k => rows2_0 V c t p k _ rfl) (fun p k => rows2_1 V c t p k _ rfl)
    (whole2_2 V c t) (whole2_3 V c t) (whole2_4 V c t) (whole2_5 V c t) (whole2_6 V c t) (whole2_7 V c t) p q

end

section
variable (V : (c : Dev nD) → (b : Ref sig .tc) → Buf (Elt Ideal) ((c : Thread nD τ).loc b))

/-- Every block of rows is some grid point's (decided over the grid). -/
theorem idx_onto2 : ∀ q0 : Fin 100, ∃ t : Fin cfg2.N, win2_8.index t = ![q0.val, 0] :=
  (by decide +kernel : ∀ q0 : Fin 100, ∃ t : Fin grid2.N, win2_8.index t = ![q0.val, 0])

/-- An index of the output array is in grid point t's block iff each coordinate is in the block's range on its axis. -/
theorem mem_blk2 (t : Fin cfg2.N) (i : S500000x2.Idx) :
    i ∈ ((cfg2.win 8).blk t).view.set ↔ ∀ a : Fin 2, win2_8.index t a * S5000x2.size a ≤ (i a).val
      ∧ (i a).val < win2_8.index t a * S5000x2.size a + S5000x2.size a := by
  show i ∈ ((View.whole main_v50).slice (win2_8.rect t)).set ↔ _
  rw [View.set_slice_whole, Rect.mem_set_unit]
  exact Iff.rfl

/-- Every index of the output array is in some grid point's block: row r is in the block of point r / 5000. -/
theorem cover2 (i : S500000x2.Idx) :
    ∃ t : Fin cfg2.N, (cfg2.win 8).flush t = true ∧ i ∈ ((cfg2.win 8).blk t).view.set := by
  have hi0 : (i 0).val < 500000 := idx2_lt0 i
  have hi1 : (i 1).val < 2 := idx2_lt1 i
  obtain ⟨t, ht⟩ := idx_onto2 ⟨(i 0).val / 5000, by omega⟩
  have q0 : win2_8.index t (0 : Fin 2) = (i 0).val / 5000 := congrFun ht 0
  have q1 : win2_8.index t (1 : Fin 2) = 0 := congrFun ht 1
  refine ⟨t, flush2_8 t, ?_⟩
  rw [mem_blk2]
  intro a
  match a with
  | ⟨0, _⟩ =>
    show win2_8.index t (0 : Fin 2) * 5000 ≤ (i 0).val ∧ (i 0).val < win2_8.index t (0 : Fin 2) * 5000 + 5000
    omega
  | ⟨1, _⟩ =>
    show win2_8.index t (1 : Fin 2) * 2 ≤ (i 1).val ∧ (i 1).val < win2_8.index t (1 : Fin 2) * 2 + 2
    omega

/-- The output array of the pair head ends holding the pair head of the arrays the region finds. -/
theorem final2 (c : Dev nD) : (dat2 (F := Ideal) V c).arrAt 8 cfg2.N
    = pairOut (P := 500000) (pairHidden (P := 500000) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)))
        (V c (Pipeline.arrRef spec2 6)) (V c (Pipeline.arrRef spec2 7)) :=
  (dat2 (F := Ideal) V c).arrAt_eq_of_cover 8 (head2 V c) (fun t _ => flushed2_eq V c t) cover2

end

end Cert.GraphNet.Regions

end
-- ==== Proof.RefLayers.lean ====
/-
  The reference's three dense layers are the specification's functions, on the extended reals.

  The reference computes each graph-convolution update as two matrix products added, a bias laid out as one row
  and repeated down the rows added to that, and the maximum with an array of zeros; read at an index (p, q)
  that is  max ((Σ_k feat(p,k)·ws(k,q) + Σ_k nb(p,k)·wn(k,q)) + b q) 0,  the specification's `sageUpdate`.
  The pair head multiplies the three arrays h1, h2, |h1 − h2| laid side by side (192 = 64 + 64 + 64 columns) by
  one 192 × 64 matrix: a sum over the joined columns is the sum of the three pieces' sums, so the product is
  h1·(rows 0–63) + h2·(rows 64–127) + |h1 − h2|·(rows 128–191), added left to right — `pairHidden` — and the
  output layer is one more product plus its bias, `pairOut`.
  The aggregated neighbour features and the gathered rows are kept as they are: nothing here looks inside them.
-/
import proofs.«172559_j14190571946097_2_alg».proof.Proof.Spec
import proofs.«172559_j14190571946097_2_alg».proof.Proof.Gen.ReferenceIdeal.Read

noncomputable section

open scoped BigOperators

namespace Cert.GraphNet.Ref

open Cert.ReferenceIdeal Cert.ReferenceIdeal.Gen Cert.ReferenceIdeal.Read Idealize.ShloMosaic Idealize.ShloMosaic.ValueIdx
open Cert.LibMatmul Cert.LibJoinedAxis Cert.GraphNet

/-! ## The host's matrix products are `MM` -/

/-- A product of a 100000 × 64 array with a 64 × 64 matrix on the host is the matrix product. -/
theorem dot_64_64 (x : FVec Ideal S100000x64 .f32) (w : FVec Ideal S64x64 .f32) :
    Host.dotGeneral (F := Ideal) dot_S100000x64_S64x64_S100000x64_1_0_0_1_n_n none x w = MM x w := by
  simp only [Host.dotGeneral]
  exact dotGeneral_eq dot_S100000x64_S64x64_S100000x64_1_0_0_1_n_n rfl rfl rfl rfl rfl rfl none _ x w

/-- A product of a 500000 × 192 array with a 192 × 64 matrix on the host is the matrix product. -/
theorem dot_192_64 (x : FVec Ideal S500000x192 .f32) (w : FVec Ideal S192x64 .f32) :
    Host.dotGeneral (F := Ideal) dot_S500000x192_S192x64_S500000x64_1_0_0_1_n_n none x w = MM x w := by
  simp only [Host.dotGeneral]
  exact dotGeneral_eq dot_S500000x192_S192x64_S500000x64_1_0_0_1_n_n rfl rfl rfl rfl rfl rfl none _ x w

/-- A product of a 500000 × 64 array with a 64 × 2 matrix on the host is the matrix product. -/
theorem dot_64_2 (x : FVec Ideal S500000x64 .f32) (w : FVec Ideal S64x2 .f32) :
    Host.dotGeneral (F := Ideal) dot_S500000x64_S64x2_S500000x2_1_0_0_1_n_n none x w = MM x w := by
  simp only [Host.dotGeneral]
  exact dotGeneral_eq dot_S500000x64_S64x2_S500000x2_1_0_0_1_n_n rfl rfl rfl rfl rfl rfl none _ x w

/-! ## The two graph-convolution updates -/

/-- The first update: relu (x·W5 + nb·W6 + b7), nb the aggregated neighbour features of x. -/
theorem layer0 (a0 : (⟨S100000x64, .f32⟩ : BufTy).Contents (Elt Ideal)) (a1 a2 : (⟨S1600000, .i32⟩ : BufTy).Contents (Elt Ideal))
    (a5 a6 : (⟨S64x64, .f32⟩ : BufTy).Contents (Elt Ideal)) (a7 : (⟨S64, .f32⟩ : BufTy).Contents (Elt Ideal)) :
    val_main_v25 (F := Ideal) a0 a1 a2 a5 a6 a7 = sageUpdate a0 (val_main_v18 (F := Ideal) a0 a1 a2) a5 a6 a7 := by
  funext i
  obtain ⟨p, q, rfl⟩ : ∃ (p : Fin 100000) (q : Fin 64), i = ix2 p q := ⟨i 0, i 1, eq_ix2 i⟩
  rw [sageUpdate_apply, val_main_v25_apply, val_main_v24_apply, val_main_v21_apply, val_main_v23_apply, val_main_v22_apply,
    val_main_call0_v0_apply, val_main_call0_cst_apply]
  have e19 : val_main_v19 (F := Ideal) a0 a5 = MM a0 a5 := dot_64_64 a0 a5
  have e20 : val_main_v20 (F := Ideal) a0 a1 a2 a6 = MM (val_main_v18 (F := Ideal) a0 a1 a2) a6 := dot_64_64 _ a6
  rw [e19, e20]
  have eb : idx_main_v22 (idx_main_v23 (ix2 p q)) = ix1 q := by
    funext a; match a with | ⟨0, _⟩ => rfl
  rw [eb]
  rfl

/-- The second update: the same from the first update's result h, relu (h·W8 + nb'·W9 + b10). -/
theorem layer1 (a0 : (⟨S100000x64, .f32⟩ : BufTy).Contents (Elt Ideal)) (a1 a2 : (⟨S1600000, .i32⟩ : BufTy).Contents (Elt Ideal))
    (a5 a6 : (⟨S64x64, .f32⟩ : BufTy).Contents (Elt Ideal)) (a7 : (⟨S64, .f32⟩ : BufTy).Contents (Elt Ideal))
    (a8 a9 : (⟨S64x64, .f32⟩ : BufTy).Contents (Elt Ideal)) (a10 : (⟨S64, .f32⟩ : BufTy).Contents (Elt Ideal)) :
    val_main_v44 (F := Ideal) a0 a1 a2 a5 a6 a7 a8 a9 a10
      = sageUpdate (val_main_v25 (F := Ideal) a0 a1 a2 a5 a6 a7) (val_main_v37 (F := Ideal) a0 a1 a2 a5 a6 a7) a8 a9 a10 := by
  funext i
  obtain ⟨p, q, rfl⟩ : ∃ (p : Fin 100000) (q : Fin 64), i = ix2 p q := ⟨i 0, i 1, eq_ix2 i⟩
  rw [sageUpdate_apply, val_main_v44_apply, val_main_v43_apply, val_main_v40_apply, val_main_v42_apply, val_main_v41_apply,
    val_main_call1_v0_apply, val_main_call1_cst_apply]
  have e38 : val_main_v38 (F := Ideal) a0 a1 a2 a5 a6 a7 a8 = MM (val_main_v25 (F := Ideal) a0 a1 a2 a5 a6 a7) a8 := dot_64_64 _ a8
  have e39 : val_main_v39 (F := Ideal) a0 a1 a2 a5 a6 a7 a9 = MM (val_main_v37 (F := Ideal) a0 a1 a2 a5 a6 a7) a9 := dot_64_64 _ a9
  rw [e38, e39]
  have eb : idx_main_v41 (idx_main_v42 (ix2 p q)) = ix1 q := by
    funext a; match a with | ⟨0, _⟩ => rfl
  rw [eb]
  rfl

/-! ## Three arrays laid side by side, read at a column of each piece -/

/-- Columns 0–63 of [x | y | z] are x. -/
theorem cat3_piece0 (x y z : (⟨S500000x64, .f32⟩ : BufTy).Contents (Elt Ideal)) (p : Fin 500000) (k : Fin 64) :
    concatenate (α := EReal) S500000x192 1 [⟨S500000x64, x⟩, ⟨S500000x64, y⟩, ⟨S500000x64, z⟩] concatenates_S500000x64_S500000x64_S500000x64_S500000x192_d1
        (ix2 p ⟨0 + k.val, by have := k.isLt; omega⟩) = x (ix2 p k) := by
  refine concatenate_apply_piece (1 : Fin S500000x192.rank) _ _ _ 0 (by show 0 < 3; omega) S500000x64 x rfl rfl 0 rfl (ix2 p k) (fun b hb => ?_) ?_
  · match b with
    | ⟨0, _⟩ => rfl
    | ⟨1, _⟩ => exact absurd rfl hb
  · rfl

/-- Columns 64–127 of [x | y | z] are y. -/
theorem cat3_piece1 (x y z : (⟨S500000x64, .f32⟩ : BufTy).Contents (Elt Ideal)) (p : Fin 500000) (k : Fin 64) :
    concatenate (α := EReal) S500000x192 1 [⟨S500000x64, x⟩, ⟨S500000x64, y⟩, ⟨S500000x64, z⟩] concatenates_S500000x64_S500000x64_S500000x64_S500000x192_d1
        (ix2 p ⟨64 + k.val, by have := k.isLt; omega⟩) = y (ix2 p k) := by
  refine concatenate_apply_piece (1 : Fin S500000x192.rank) _ _ _ 1 (by show 1 < 3; omega) S500000x64 y rfl rfl 64 rfl (ix2 p k) (fun b hb => ?_) ?_
  · match b with
    | ⟨0, _⟩ => rfl
    | ⟨1, _⟩ => exact absurd rfl hb
  · rfl

/-- Columns 128–191 of [x | y | z] are z. -/
theorem cat3_piece2 (x y z : (⟨S500000x64, .f32⟩ : BufTy).Contents (Elt Ideal)) (p : Fin 500000) (k : Fin 64) :
    concatenate (α := EReal) S500000x192 1 [⟨S500000x64, x⟩, ⟨S500000x64, y⟩, ⟨S500000x64, z⟩] concatenates_S500000x64_S500000x64_S500000x64_S500000x192_d1
        (ix2 p ⟨64 + 64 + k.val, by have := k.isLt; omega⟩) = z (ix2 p k) := by
  refine concatenate_apply_piece (1 : Fin S500000x192.rank) _ _ _ 2 (by show 2 < 3; omega) S500000x64 z rfl rfl (64 + 64) rfl (ix2 p k) (fun b hb => ?_) ?_
  · match b with
    | ⟨0, _⟩ => rfl
    | ⟨1, _⟩ => exact absurd rfl hb
  · rfl

/-! ## The pair head -/

/-- The hidden layer: with h1, h2 the two gathered arrays, relu (h1·A + h2·B + |h1 − h2|·C + b12), where A, B, C are
    rows 0–63, 64–127 and 128–191 of the 192 × 64 weight matrix. -/
theorem hidden (a0 : (⟨S100000x64, .f32⟩ : BufTy).Contents (Elt Ideal)) (a1 a2 : (⟨S1600000, .i32⟩ : BufTy).Contents (Elt Ideal))
    (a3 a4 : (⟨S500000, .i32⟩ : BufTy).Contents (Elt Ideal)) (a5 a6 : (⟨S64x64, .f32⟩ : BufTy).Contents (Elt Ideal))
    (a7 : (⟨S64, .f32⟩ : BufTy).Contents (Elt Ideal)) (a8 a9 : (⟨S64x64, .f32⟩ : BufTy).Contents (Elt Ideal))
    (a10 : (⟨S64, .f32⟩ : BufTy).Contents (Elt Ideal)) (a11 : (⟨S192x64, .f32⟩ : BufTy).Contents (Elt Ideal))
    (a12 : (⟨S64, .f32⟩ : BufTy).Contents (Elt Ideal)) :
    val_main_v66 (F := Ideal) a0 a1 a2 a3 a4 a5 a6 a7 a8 a9 a10 a11 a12
      = pairHidden (val_main_v51 (F := Ideal) a0 a1 a2 a3 a5 a6 a7 a8 a9 a10) (val_main_v58 (F := Ideal) a0 a1 a2 a4 a5 a6 a7 a8 a9 a10)
          (rowsAt 0 64 (by omega) a11) (rowsAt 64 64 (by omega) a11) (rowsAt 128 64 (by omega) a11) a12 := by
  funext i
  obtain ⟨p, q, rfl⟩ : ∃ (p : Fin 500000) (q : Fin 64), i = ix2 p q := ⟨i 0, i 1, eq_ix2 i⟩
  rw [pairHidden_apply, val_main_v66_apply, val_main_v65_apply, val_main_v64_apply, val_main_v63_apply,
    val_main_call2_v0_apply, val_main_call2_cst_apply]
  have e62 : val_main_v62 (F := Ideal) a0 a1 a2 a3 a4 a5 a6 a7 a8 a9 a10 a11 = MM (val_main_v61 (F := Ideal) a0 a1 a2 a3 a4 a5 a6 a7 a8 a9 a10) a11 := dot_192_64 _ a11
  rw [e62]
  have eb : idx_main_v63 (idx_main_v64 (ix2 p q)) = ix1 q := by
    funext a; match a with | ⟨0, _⟩ => rfl
  rw [eb]
  have e60 : (val_main_v60 (F := Ideal) a0 a1 a2 a3 a4 a5 a6 a7 a8 a9 a10) = absDiff (val_main_v51 (F := Ideal) a0 a1 a2 a3 a5 a6 a7 a8 a9 a10) (val_main_v58 (F := Ideal) a0 a1 a2 a4 a5 a6 a7 a8 a9 a10) := rfl
  have ej := MM_join3 (a := 64) (b := 64) (c := 64) (val_main_v61 (F := Ideal) a0 a1 a2 a3 a4 a5 a6 a7 a8 a9 a10) (val_main_v51 (F := Ideal) a0 a1 a2 a3 a5 a6 a7 a8 a9 a10) (val_main_v58 (F := Ideal) a0 a1 a2 a4 a5 a6 a7 a8 a9 a10)
    (absDiff (val_main_v51 (F := Ideal) a0 a1 a2 a3 a5 a6 a7 a8 a9 a10) (val_main_v58 (F := Ideal) a0 a1 a2 a4 a5 a6 a7 a8 a9 a10)) a11 p q
    (fun k => cat3_piece0 _ _ _ p k) (fun k => cat3_piece1 _ _ _ p k) (fun k => (cat3_piece2 _ _ _ p k).trans (congrFun e60 _))
  exact congrArg (fun t : EReal => max (t + a12 (ix1 q)) (Ideal.ofBits .f32 0x00000000#32)) ej

/-- The output layer on the hidden layer: hid·W13 + b14. -/
theorem head (a0 : (⟨S100000x64, .f32⟩ : BufTy).Contents (Elt Ideal)) (a1 a2 : (⟨S1600000, .i32⟩ : BufTy).Contents (Elt Ideal))
    (a3 a4 : (⟨S500000, .i32⟩ : BufTy).Contents (Elt Ideal)) (a5 a6 : (⟨S64x64, .f32⟩ : BufTy).Contents (Elt Ideal))
    (a7 : (⟨S64, .f32⟩ : BufTy).Contents (Elt Ideal)) (a8 a9 : (⟨S64x64, .f32⟩ : BufTy).Contents (Elt Ideal))
    (a10 : (⟨S64, .f32⟩ : BufTy).Contents (Elt Ideal)) (a11 : (⟨S192x64, .f32⟩ : BufTy).Contents (Elt Ideal))
    (a12 : (⟨S64, .f32⟩ : BufTy).Contents (Elt Ideal))
    (a13 : (⟨S64x2, .f32⟩ : BufTy).Contents (Elt Ideal)) (a14 : (⟨S2, .f32⟩ : BufTy).Contents (Elt Ideal)) :
    val_main_v70 (F := Ideal) a0 a1 a2 a3 a4 a5 a6 a7 a8 a9 a10 a11 a12 a13 a14
      = pairOut (pairHidden (val_main_v51 (F := Ideal) a0 a1 a2 a3 a5 a6 a7 a8 a9 a10) (val_main_v58 (F := Ideal) a0 a1 a2 a4 a5 a6 a7 a8 a9 a10)
          (rowsAt 0 64 (by omega) a11) (rowsAt 64 64 (by omega) a11) (rowsAt 128 64 (by omega) a11) a12) a13 a14 := by
  rw [← hidden a0 a1 a2 a3 a4 a5 a6 a7 a8 a9 a10 a11 a12]
  funext i
  obtain ⟨p, q, rfl⟩ : ∃ (p : Fin 500000) (q : Fin 2), i = ix2 p q := ⟨i 0, i 1, eq_ix2 i⟩
  rw [pairOut_apply, val_main_v70_apply, val_main_v69_apply, val_main_v68_apply]
  have e67 : val_main_v67 (F := Ideal) a0 a1 a2 a3 a4 a5 a6 a7 a8 a9 a10 a11 a12 a13
      = MM (val_main_v66 (F := Ideal) a0 a1 a2 a3 a4 a5 a6 a7 a8 a9 a10 a11 a12) a13 := dot_64_2 _ a13
  rw [e67]
  have eb : idx_main_v68 (idx_main_v69 (ix2 p q)) = ix1 q := by
    funext a; match a with | ⟨0, _⟩ => rfl
  rw [eb]
  rfl

end Cert.GraphNet.Ref

end
-- ==== Proof.Assembly.lean ====
/-
  The idealized kernel's result array is the reference's last stage of the arrays as launched.

  Boundary by boundary.  The first host stretch leaves the degree column and the first mean over incoming edges, both the
  reference's stages of the launch arrays.  The first tiled update leaves relu (h·Ws + mean·Wn + b) of the whole arrays
  (its twenty blocks of 5000 rows cover the array and an entry depends on its own row only), which is the reference's
  first hidden state.  The second stretch applies the same mean to that state, the second tiled update the same dense
  layer with the second layer's weights: the reference's second hidden state.  The third stretch gathers the rows of the
  pair endpoints and cuts the head's first weight matrix into its three blocks of 64 rows; the tiled head leaves
  relu (h1·A + h2·B + |h1 − h2|·C + b)·W2 + b2, which is the reference's product of [h1 | h2 | |h1 − h2|] with the whole
  matrix (a sum over the 192 joined columns is the sum of the three pieces' sums) followed by the output layer.
  The gathers, the scatter-adds and the quotient by the degrees are the same operations of the same arrays on both
  sides and are never opened; no law beyond commutativity and associativity of addition on the extended reals is used,
  so the finiteness of the inputs is not needed.
-/
import proofs.«172559_j14190571946097_2_alg».proof.Proof.KernelIdealFrameP
import proofs.«172559_j14190571946097_2_alg».proof.Proof.Boundaries
import proofs.«172559_j14190571946097_2_alg».proof.Proof.Stretch0
import proofs.«172559_j14190571946097_2_alg».proof.Proof.Stretch1
import proofs.«172559_j14190571946097_2_alg».proof.Proof.Stretch2
import proofs.«172559_j14190571946097_2_alg».proof.Proof.RefChains
import proofs.«172559_j14190571946097_2_alg».proof.Proof.Spec
import proofs.«172559_j14190571946097_2_alg».proof.Proof.Region0
import proofs.«172559_j14190571946097_2_alg».proof.Proof.Region1
import proofs.«172559_j14190571946097_2_alg».proof.Proof.Region2
import proofs.«172559_j14190571946097_2_alg».proof.Proof.RefLayers

set_option maxRecDepth 16384

noncomputable section

namespace Cert.GraphNet.Assembly

open Cert.KernelIdeal Cert.KernelIdeal.Gen Cert.KernelIdeal.GenP Cert.KernelIdeal.Boundaries
open Cert.GraphNet Cert.GraphNet.Stretches Cert.GraphNet.RefChains Cert.LibJoinedAxis
open Idealize.ShloMosaic Idealize.ShloMosaic.TcCoe Idealize.SL.Sem

variable (m : (ℓ : Loc nD τ sig) → Buf (Elt Ideal) ℓ) (ρ : Dev nD → PrngReg)

/-- After the first dense update its result array is the reference's first hidden state, of the arrays as launched. -/
theorem update0 (c : Dev nD) : W2 m ρ c (Proc.devRef .tc main_v19) = (Cert.ReferenceIdeal.Read.val_main_v25 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) := by
  refine (W2_arr m ρ c 5).trans ?_
  rw [Regions.final0 (V1 m ρ) c, Ref.layer0]
  show sageUpdate (W1 m ρ c (Proc.devRef .tc main_arg0)) (W1 m ρ c (Proc.devRef .tc main_v18)) (W1 m ρ c (Proc.devRef .tc main_arg5))
    (W1 m ρ c (Proc.devRef .tc main_arg6)) (W1 m ρ c (Proc.devRef .tc main_arg7)) = _
  rw [W1_arg0 m ρ c, mean0 m ρ c, W1_arg5 m ρ c, W1_arg6 m ρ c, W1_arg7 m ρ c]

/-- After the second dense update its result array is the reference's second hidden state. -/
theorem update1 (c : Dev nD) : W4 m ρ c (Proc.devRef .tc main_v32) = (Cert.ReferenceIdeal.Read.val_main_v44 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W4_arr m ρ c 5).trans ?_
  rw [Regions.final1 (V3 m ρ) c, Ref.layer1, mean_again]
  show sageUpdate (W3 m ρ c (Proc.devRef .tc main_v19)) (W3 m ρ c (Proc.devRef .tc main_v31)) (W3 m ρ c (Proc.devRef .tc main_arg8))
    (W3 m ρ c (Proc.devRef .tc main_arg9)) (W3 m ρ c (Proc.devRef .tc main_arg10)) = _
  rw [W3_v19 m ρ c, mean1 m ρ c (degrees m ρ c), W3_arg8 m ρ c, W3_arg9 m ρ c, W3_arg10 m ρ c, update0 m ρ c]

/-- After the pair head its result array is the reference's result, of the arrays as launched. -/
theorem result (c : Dev nD) : W6 m ρ c (Proc.devRef .tc main_v50) = (Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W6_arr m ρ c 8).trans ?_
  rw [Regions.final2 (V5 m ρ) c, Ref.head]
  show pairOut (pairHidden (W5 m ρ c (Proc.devRef .tc main_v39)) (W5 m ρ c (Proc.devRef .tc main_v46)) (W5 m ρ c (Proc.devRef .tc main_v47))
    (W5 m ρ c (Proc.devRef .tc main_v48)) (W5 m ρ c (Proc.devRef .tc main_v49)) (W5 m ρ c (Proc.devRef .tc main_arg12)))
    (W5 m ρ c (Proc.devRef .tc main_arg13)) (W5 m ρ c (Proc.devRef .tc main_arg14)) = _
  rw [endpoints1 m ρ c, endpoints2 m ρ c, block_a m ρ c, block_b m ρ c, block_c m ρ c, W5_arg12 m ρ c, W5_arg13 m ρ c, W5_arg14 m ρ c,
    update1 m ρ c, index2_of]
  rfl

end Cert.GraphNet.Assembly

end
-- ==== Proof.lean ====
/-
  Two graph-convolution layers with mean aggregation and a pair head, as three tiled kernels among host gathers and
  scatter-adds, against the plain array program: equal results on the extended reals.

  The three frame claims are the programs' runs with the results dropped.  The idealization rewrote nothing, so there
  is nothing to preserve.  For the value claim both programs end with the reference's last stage of the argument
  arrays: the kernel's result array is followed through its six segments (Proof/Assembly.lean — each dense layer read
  block of rows by block of rows as the whole arrays' function, each host stretch the reference's own operations of the
  same arrays), the reference's through its run read one stage at a time.
-/
import proofs.«172559_j14190571946097_2_alg».proof.Defs
import proofs.«172559_j14190571946097_2_alg».proof.Proof.Gen.Kernel
import proofs.«172559_j14190571946097_2_alg».proof.Proof.Gen.KernelIdeal
import proofs.«172559_j14190571946097_2_alg».proof.Proof.Gen.ReferenceIdeal
import proofs.«172559_j14190571946097_2_alg».proof.Proof.Gen.Pre_finite_inputs
import proofs.«172559_j14190571946097_2_alg».proof.Proof.Gen.ReferenceIdeal.Run
import proofs.«172559_j14190571946097_2_alg».proof.Proof.Gen.ReferenceIdeal.Read
import proofs.«172559_j14190571946097_2_alg».proof.Proof.KernelFrameP
import proofs.«172559_j14190571946097_2_alg».proof.Proof.KernelIdealFrameP
import proofs.«172559_j14190571946097_2_alg».proof.Proof.KernelRun
import proofs.«172559_j14190571946097_2_alg».proof.Proof.Assembly
import Idealize.ShloMosaic.Adequacy
import Idealize.ShloMosaic.Init

noncomputable section

namespace Cert.Proof.Claims

open Idealize.ShloMosaic Idealize.ShloMosaic.TcCoe Idealize.SL.Sem

/-- The word-level kernel terminates without a fault and leaves its arguments as launched. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- So does the idealized reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories that agree on the fifteen arguments, the idealized kernel and the idealized reference both end, with
    the same result array: the reference's last stage of the arguments — the kernel's by the three dense layers read
    block by block and the shared host stretches, the reference's by its run read stage by stage. -/
theorem algebraic : Cert.algebraic_KernelIdeal_ReferenceIdeal := by
  intro m ρ m' ρ' _ hagree
  refine ⟨fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.GraphNet.Assembly.result m ρ c), (h c).2⟩)
      (Cert.KernelIdeal.RunNamed.run_named (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14⟩ := hagree c
    rw [(h c).1, Cert.ReferenceIdeal.Read.val_main_v70_eq, e0, e1, e2, e3, e4, e5, e6, e7, e8, e9, e10, e11, e12, e13, e14]

end Cert.Proof.Claims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
